-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x100 : S_.BroadcastsInDim S128x100 (![] : Fin 0 → Fin S128x100.rank)
  reducesTo_S128x100_S_d0_1 : S128x100.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg5 : FVec F S128 .f32) (main_arg6 : FVec F S128x100 .f32) (main_arg7 : FVec F S100 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x100 .f32 := Host.absf main_arg6
  let main_cst_8 : FVec F S_ .f32 := constant S_ .f32 0x7F800000#32
  let main_v25 : FVec F S128x100 .f32 := broadcastInDim S128x100 ![] bcast_S_S128x100 main_cst_8
  let main_v26 : IVec S128x100 1 := cmpf .olt main_v24 main_v25
  let main_c_9 : IVec S_ 1 := constantI S_ 1 1#1
  let main_v27 : IVec S_ 1 := (fun x v => Host.reduce IntOp.andi x v reducesTo_S128x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x100 .f32) (main_arg7 : FVec F S100 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S10000x128 : Shape := ⟨2, ![10000, 128]⟩
abbrev S1650000x128 : Shape := ⟨2, ![1650000, 128]⟩
abbrev S1x128 : Shape := ⟨2, ![1, 128]⟩
abbrev S1x100 : Shape := ⟨2, ![1, 100]⟩
abbrev S50000x100 : Shape := ⟨2, ![50000, 100]⟩
abbrev S10000x100 : Shape := ⟨2, ![10000, 100]⟩
abbrev S10000 : Shape := ⟨1, ![10000]⟩
abbrev S10000x1 : Shape := ⟨2, ![10000, 1]⟩

abbrev nBuf : Space → Nat
  | .hbm => 100
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x100, .f32⟩
  | .hbm, ⟨7, _⟩ => ⟨S100, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1650000, .i32⟩
  | .hbm, ⟨19, _⟩ => ⟨S1650000, .i1⟩
  | .hbm, ⟨20, _⟩ => ⟨S_, .i32⟩
  | .hbm, ⟨21, _⟩ => ⟨S1650000, .i32⟩
  | .hbm, ⟨22, _⟩ => ⟨S1650000, .i32⟩
  | .hbm, ⟨23, _⟩ => ⟨S1650000, .i32⟩
  | .hbm, ⟨24, _⟩ => ⟨S1650000x1, .i32⟩
  | .hbm, ⟨25, _⟩ => ⟨S_, .f32⟩
  | .hbm, ⟨26, _⟩ => ⟨S1650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x128, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x128, .f32⟩
  | .hbm, ⟨65, _⟩ => ⟨S1650000x1, .f32⟩
  | .hbm, ⟨66, _⟩ => ⟨S1650000x128, .f32⟩
  | .hbm, ⟨67, _⟩ => ⟨S1650000x128, .f32⟩
  | .hbm, ⟨68, _⟩ => ⟨S_, .f32⟩
  | .hbm, ⟨69, _⟩ => ⟨S50000x128, .f32⟩
  | .hbm, ⟨70, _⟩ => ⟨S1650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x128, .f32⟩
  | .hbm, ⟨88, _⟩ => ⟨S1650000x1, .f32⟩
  | .hbm, ⟨89, _⟩ => ⟨S1650000x128, .f32⟩
  | .hbm, ⟨90, _⟩ => ⟨S1650000x128, .f32⟩
  | .hbm, ⟨91, _⟩ => ⟨S_, .f32⟩
  | .hbm, ⟨92, _⟩ => ⟨S50000x128, .f32⟩
  | .hbm, ⟨93, _⟩ => ⟨S1650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S1x100, .f32⟩
  | .hbm, ⟨99, _⟩ => ⟨S50000x100, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x100, .f32⟩
  | .local _ .vmem, ⟨13, _⟩ => ⟨S1x100, .f32⟩
  | .local _ .vmem, ⟨14, _⟩ => ⟨S10000x100, .f32⟩
  | .local _ .vmem, ⟨15, _⟩ => ⟨S10000x100, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x100 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  shapeCasts_S100_S1x100 : S100.ShapeCasts S1x100
  inb_S128x100_S128x100_0_0 : ∀ a, (![0, 0] : Fin 2 → Nat) a + S128x100.size a ≤ S128x100.size a
  h_S128x100 : 0 < S128x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  reduces_S10000x100_S10000 : S10000x100.Reduces [1] S10000
  shapeCasts_S10000_S10000x1 : S10000.ShapeCasts S10000x1
  broadcasts_S10000x1_S10000x100 : S10000x1.Broadcasts S10000x100
  inb_S10000x100_S10000x100_0_0 : ∀ a, (![0, 0] : Fin 2 → Nat) a + S10000x100.size a ≤ S10000x100.size a
  h_S10000x100 : 0 < S10000x100.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x128_S128x128_S10000x128_1_0_0_1_n_n_wf : DotDims.WF S10000x128 S128x128 S10000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S10000x128_S128x100_S10000x100_1_0_0_1_n_n_wf : DotDims.WF S10000x128 S128x100 S10000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x100.size a ≤ S128x100.size a
  hwx2_1 : ∀ i : grid2.Coords, EltTy.bits .f32 = 32 ∨ (Rect.block (s := S128x100) S128x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x100.size a ≤ S50000x100.size a
  hwx2_3 : ∀ i : grid2.Coords, EltTy.bits .f32 = 32 ∨ (Rect.block (s := S50000x100) S10000x100.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S10000x128_S128x100_S10000x100_1_0_0_1_n_n : DotDims S10000x128 S128x100 S10000x100 where
  lhsContracting := [1]
  rhsContracting := [0]
  lhsNonContracting := [0]
  rhsNonContracting := [1]
  lhsBatch := []
  rhsBatch := []
  wf := dot_S10000x128_S128x100_S10000x100_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x100.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x100 : Shape := ⟨2, ![128, 100]⟩
abbrev S100 : Shape := ⟨1, ![100]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x100 : Shape := ⟨2, ![50000, 100]⟩
abbrev S1x100 : Shape := ⟨2, ![1, 100]⟩
abbrev S50000x1 : Shape := ⟨2, ![50000, 1]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x100, .f32⟩
  | .hbm, ⟨7, _⟩ => ⟨S100, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S1650000, .i32⟩
  | .hbm, ⟨19, _⟩ => ⟨S1650000, .i1⟩
  | .hbm, ⟨20, _⟩ => ⟨S_, .i32⟩
  | .hbm, ⟨21, _⟩ => ⟨S1650000, .i32⟩
  | .hbm, ⟨22, _⟩ => ⟨S1650000, .i32⟩
  | .hbm, ⟨23, _⟩ => ⟨S1650000, .i32⟩
  | .hbm, ⟨24, _⟩ => ⟨S1650000x1, .i32⟩
  | .hbm, ⟨25, _⟩ => ⟨S_, .f32⟩
  | .hbm, ⟨26, _⟩ => ⟨S1650000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x128, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x128, .f32⟩
  | .hbm, ⟨65, _⟩ => ⟨S1650000x1, .f32⟩
  | .hbm, ⟨66, _⟩ => ⟨S1650000x128, .f32⟩
  | .hbm, ⟨67, _⟩ => ⟨S1650000x128, .f32⟩
  | .hbm, ⟨68, _⟩ => ⟨S_, .f32⟩
  | .hbm, ⟨69, _⟩ => ⟨S50000x128, .f32⟩
  | .hbm, ⟨70, _⟩ => ⟨S1650000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x128, .f32⟩
  | .hbm, ⟨88, _⟩ => ⟨S1650000x1, .f32⟩
  | .hbm, ⟨89, _⟩ => ⟨S1650000x128, .f32⟩
  | .hbm, ⟨90, _⟩ => ⟨S1650000x128, .f32⟩
  | .hbm, ⟨91, _⟩ => ⟨S_, .f32⟩
  | .hbm, ⟨92, _⟩ => ⟨S50000x128, .f32⟩
  | .hbm, ⟨93, _⟩ => ⟨S1650000x1, .i32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S50000x100, .f32⟩
  | .hbm, ⟨99, _⟩ => ⟨S1x100, .f32⟩
  | .hbm, ⟨100, _⟩ => ⟨S50000x100, .f32⟩
  | .hbm, ⟨101, _⟩ => ⟨S50000x100, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S50000x1, .f32⟩
  | .hbm, ⟨108, _⟩ => ⟨S50000x100, .f32⟩
  | .hbm, ⟨109, _⟩ => ⟨S50000x100, .f32⟩
  | .hbm, ⟨110, _⟩ => ⟨S50000x100, .f32⟩
  | .hbm, ⟨111, _⟩ => ⟨S_, .f32⟩
  | .hbm, ⟨112, _⟩ => ⟨S50000, .f32⟩
  | .hbm, ⟨113, _⟩ => ⟨S50000x1, .f32⟩
  | .hbm, ⟨114, _⟩ => ⟨S50000x100, .f32⟩
  | .hbm, ⟨115, _⟩ => ⟨S50000x100, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  reducesTo_S50000x100_S50000_d1 : S50000x100.ReducesTo [1] S50000
  h_S_ : 0 < S_.numel
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x100_S50000x100_1_0_0_1_n_n_wf : DotDims.WF S50000x128 S128x100 S50000x100 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf

class Facts : Prop extends Facts₀ where

variable [Facts]
-- ==== Proof.Spec.lean ====
/-
  The shared arithmetic of the two programs, as pure functions of whole arrays (over any float values; the claim reads them
  at the exact, extended-real ones).  A two-layer graph convolution with a softmax head over N = 50000 nodes, E = 1600000 edges and one
  self-loop per node (1650000 endpoints in all):
    * `src e`, `dst e` : the endpoint lists, row 0 and row 1 of the edge array each followed by 0, 1, …, N-1;
    * `wrap ix`        : an index list as a column of start indices, a negative index moved up by N;
    * `deg`, `dinv`, `norm` : the in-degree of every node (a scatter-add of ones along `dst`), its inverse square
      root where the degree is positive and 0 elsewhere, and per endpoint pair the product dinv[src] · dinv[dst];
    * `lin x w`        : the matrix product x · w over the 128 features;
    * `agg h s d n b`  : row r gets the sum over the endpoint pairs k with d[k] = r of n[k] · h[s[k], ·], plus the bias b;
    * `relu`, `logits`, `softmax`, and `full`, the whole network.
  Both programs compute `full`: the reference by these very host operations, the kernel with the three matrix
  products (and the softmax) done block of 10000 rows by block.
-/
import proofs.«109165_j8486855377200_1_alg».proof.Proof.Gen.ReferenceIdeal
import Idealize.ShloMosaic.PureOps.Ideal

noncomputable section

namespace Cert.Spec

open Idealize.ShloMosaic Idealize.SL.Sem Cert.ReferenceIdeal Cert.ReferenceIdeal.Gen

variable {F : FTy → Type} [FloatOps F]

/-- Row `0` of the edge array followed by the self-loops `0, …, N-1`. -/
def src (e : IVec S2x1600000 32) : IVec S1650000 32 :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- Row `1` of the edge array followed by the self-loops `0, …, N-1`. -/
def dst (e : IVec S2x1600000 32) : IVec S1650000 32 :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- An index list as a column of start indices, a negative index moved up by `N`. -/
def wrap (ix : IVec S1650000 32) : IVec S1650000x1 32 :=
  broadcastInDim S1650000x1 ![0] bcast_S1650000_S1650000x1_0
    (select (cmpi .slt ix (broadcastInDim S1650000 ![] bcast_S_S1650000 (constantI S_ 32 0#32)))
      (addi ix (broadcastInDim S1650000 ![] bcast_S_S1650000 (constantI S_ 32 50000#32))) ix)

/-- The in-degree of every node: ones added along `d`. -/
def deg (d : IVec S1650000 32) : FVec F S50000 .f32 :=
  Host.scatterAdd (F := F) scatter_S50000_S1650000x1_S1650000_n_0_0_1
    (broadcastInDim S50000 ![] bcast_S_S50000 (constant (F := F) S_ .f32 0x00000000#32)) (wrap d)
    (broadcastInDim S1650000 ![] bcast_S_S1650000 (constant (F := F) S_ .f32 0x3F800000#32))

/-- The inverse square root of the degree where it is positive, `0` elsewhere. -/
def dinv (d : IVec S1650000 32) : FVec F S50000 .f32 :=
  select (cmpf (F := F) .ogt (deg d) (broadcastInDim S50000 ![] bcast_S_S50000 (constant (F := F) S_ .f32 0x00000000#32)))
    (Host.rsqrt (F := F) (deg d))
    (broadcastInDim S50000 ![] bcast_S_S50000 (id (constant (F := F) S_ .f32 0x00000000#32)))

/-- Per endpoint pair, `dinv[src] · dinv[dst]`. -/
def norm (s d : IVec S1650000 32) : FVec F S1650000 .f32 :=
  mulf (F := F) (Host.gather gather_S50000_S1650000x1_S1650000_n_0_n_n_0_1_1 (dinv d) (wrap s))
    (Host.gather gather_S50000_S1650000x1_S1650000_n_0_n_n_0_1_1 (dinv d) (wrap d))

/-- The matrix product over the 128 features. -/
def lin (x : FVec F S50000x128 .f32) (w : FVec F S128x128 .f32) : FVec F S50000x128 .f32 :=
  Host.dotGeneral (F := F) dot_S50000x128_S128x128_S50000x128_1_0_0_1_n_n none x w

/-- One aggregation: the rows of `h` gathered along `s`, scaled by `n`, summed into the rows named by `d`; plus the bias. -/
def agg (h : FVec F S50000x128 .f32) (s d : IVec S1650000 32) (n : FVec F S1650000 .f32) (b : FVec F S128 .f32) : FVec F S50000x128 .f32 :=
  addf (F := F)
    (Host.scatterAdd (F := F) scatter_S50000x128_S1650000x1_S1650000x128_1_0_0_1
      (broadcastInDim S50000x128 ![] bcast_S_S50000x128 (constant (F := F) S_ .f32 0x00000000#32))
      (broadcastInDim S1650000x1 ![0] bcast_S1650000_S1650000x1_0 d)
      (mulf (F := F) (Host.gather gather_S50000x128_S1650000x1_S1650000x128_1_0_n_n_0_1_1128 h (wrap s))
        (broadcastInDim S1650000x128 ![0, 1] bcast_S1650000x1_S1650000x128_0_1 (broadcastInDim S1650000x1 ![0] bcast_S1650000_S1650000x1_0 n))))
    (broadcastInDim S50000x128 ![0, 1] bcast_S1x128_S50000x128_0_1 (broadcastInDim S1x128 ![1] bcast_S128_S1x128_1 b))

/-- The positive part. -/
def relu (x : FVec F S50000x128 .f32) : FVec F S50000x128 .f32 :=
  maximumf (F := F) x (broadcastInDim S50000x128 ![] bcast_S_S50000x128 (constant (F := F) S_ .f32 0x00000000#32))

/-- The head's scores: `h · wa` plus the bias row. -/
def logits (h : FVec F S50000x128 .f32) (wa : FVec F S128x100 .f32) (ba : FVec F S100 .f32) : FVec F S50000x100 .f32 :=
  addf (F := F) (Host.dotGeneral (F := F) dot_S50000x128_S128x100_S50000x100_1_0_0_1_n_n none h wa)
    (broadcastInDim S50000x100 ![0, 1] bcast_S1x100_S50000x100_0_1 (broadcastInDim S1x100 ![1] bcast_S100_S1x100_1 ba))

/-- A row's largest score (never below `-∞`). -/
def rowMax (l : FVec F S50000x100 .f32) : FVec F S50000 .f32 :=
  maximumf (F := F) (broadcastInDim S50000 ![] bcast_S_S50000 (constant (F := F) S_ .f32 0xFF800000#32))
    (Host.reduce FloatOps.maximumf l (constant (F := F) S_ .f32 0xFF800000#32) reducesTo_S50000x100_S50000_d1 h_S_)

/-- The exponentials of a row's scores less its largest one. -/
def expShift (l : FVec F S50000x100 .f32) : FVec F S50000x100 .f32 :=
  Host.exp (F := F) (subf (F := F) l
    (broadcastInDim S50000x100 ![0, 1] bcast_S50000x1_S50000x100_0_1 (broadcastInDim S50000x1 ![0] bcast_S50000_S50000x1_0 (rowMax l))))

/-- The softmax of every row. -/
def softmax (l : FVec F S50000x100 .f32) : FVec F S50000x100 .f32 :=
  Host.divf (F := F) (expShift l)
    (broadcastInDim S50000x100 ![0, 1] bcast_S50000x1_S50000x100_0_1 (broadcastInDim S50000x1 ![0] bcast_S50000_S50000x1_0
      (Host.reduceAdd (F := F) (expShift l) (constant (F := F) S_ .f32 0x00000000#32) reducesTo_S50000x100_S50000_d1 h_S_)))

/-- The whole network. -/
def full (x : FVec F S50000x128 .f32) (e : IVec S2x1600000 32) (w1 : FVec F S128x128 .f32) (b1 : FVec F S128 .f32)
    (w2 : FVec F S128x128 .f32) (b2 : FVec F S128 .f32) (wa : FVec F S128x100 .f32) (ba : FVec F S100 .f32) : FVec F S50000x100 .f32 :=
  softmax (logits (agg (lin (relu (agg (lin x w1) (src e) (dst e) (norm (src e) (dst e)) b1)) w2) (src e) (dst e) (norm (src e) (dst e)) b2) wa ba)

end Cert.Spec

end
-- ==== Proof.KRun.lean ====
/-
  The idealized kernel program's run with its RESULT named.  @main is nine segments: three stretches of host
  operations, the first matrix-product region, two stretches, the second matrix-product region, one stretch, the
  softmax region.  The generated frame walks the buffer contents through these segments (`Gen.W0` … `Gen.W9`: a
  stretch's contents are the fold of its operations, a region's are its arrays at what the write-backs leave) and reads
  the eight argument arrays off the last contents.  Here the same run is posted with one more buffer read off the last
  contents: the result array `main_v71`, at `Gen.W9`.
-/
import proofs.«109165_j8486855377200_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last segment
    boundary's contents and the argument arrays as launched: the segments' run, the last thread state read against the
    final state. -/
theorem run_named : θ_run defs (onTc (τ := τ) (main (F := F))) ⟨m, fun _ => 0, ρ⟩ (fun r => ∀ c : Dev nD,
      r.2.mem ((c.tc : Thread nD τ).loc main_v71) = W9 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v71 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.KRun

end
-- ==== Proof.KStretch.lean ====
/-
  The kernel program's stretches of host operations, each read as ONE pure function of the contents it starts from
  (`V`, any contents of the TensorCore's buffers): the stretch's operations folded over `V` leave, in the buffer named,
  the whole-array function of `Cert.Spec` applied to `V`'s arrays, and leave alone the buffers later segments still read.
    * before the first region : the endpoint lists `src`, `dst` (main_v3, main_v6) and the normalisation (main_v34);
    * between the first and the second region : `relu (agg …)` of the first product (main_v52);
    * between the second and the third region : `agg …` of the second product (main_v69), the bias recast as one row (main_v70).
-/
import proofs.«109165_j8486855377200_1_alg».proof.Proof.Gen.KernelIdeal.Launch
import proofs.«109165_j8486855377200_1_alg».proof.Proof.Spec
import Idealize.ShloMosaic.Lib.StableHlo.Run

set_option maxRecDepth 16384

noncomputable section

namespace Cert.KernelIdeal.KStretch

open Cert.KernelIdeal Cert.KernelIdeal.Gen
open Idealize.ShloMosaic Idealize.ShloMosaic.TcCoe Idealize.SL.Sem Idealize.ShloMosaic.StableHlo

variable {F : FTy → Type} [FloatOps F]

/-- Reads what is still unread inside the list of pieces of a concatenation: an operation's result at its own buffer
    is its function of its operands, and at any other buffer what was there before it. -/
macro "results_inside" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## Before the first region -/

/-- The first endpoint list: row 0 of the edge array, then the self-loops. -/
theorem s0_v3 (V : Valuation τ sig (Elt F)) :
    after hostOps0_2 (after hostOps0_1 (after hostOps0 V)) (Proc.devRef .tc main_v3) = Cert.Spec.src (V (Proc.devRef .tc main_arg1)) := by
  after_results_simp
  results_inside
  rfl

/-- The second endpoint list: row 1 of the edge array, then the self-loops. -/
theorem s0_v6 (V : Valuation τ sig (Elt F)) :
    after hostOps0_2 (after hostOps0_1 (after hostOps0 V)) (Proc.devRef .tc main_v6) = Cert.Spec.dst (V (Proc.devRef .tc main_arg1)) := by
  after_results_simp
  results_inside
  rfl

/-- The normalisation of every endpoint pair. -/
theorem s0_v34 (V : Valuation τ sig (Elt F)) :
    after hostOps0_2 (after hostOps0_1 (after hostOps0 V)) (Proc.devRef .tc main_v34)
      = Cert.Spec.norm (F := F) (Cert.Spec.src (V (Proc.devRef .tc main_arg1))) (Cert.Spec.dst (V (Proc.devRef .tc main_arg1))) := by
  after_results_simp
  results_inside
  rfl

theorem s0_keep_arg0 (V : Valuation τ sig (Elt F)) :
    after hostOps0_2 (after hostOps0_1 (after hostOps0 V)) (Proc.devRef .tc main_arg0) = V (Proc.devRef .tc main_arg0) := by
  after_results_simp

theorem s0_keep_arg2 (V : Valuation τ sig (Elt F)) :
    after hostOps0_2 (after hostOps0_1 (after hostOps0 V)) (Proc.devRef .tc main_arg2) = V (Proc.devRef .tc main_arg2) := by
  after_results_simp

theorem s0_keep_arg3 (V : Valuation τ sig (Elt F)) :
    after hostOps0_2 (after hostOps0_1 (after hostOps0 V)) (Proc.devRef .tc main_arg3) = V (Proc.devRef .tc main_arg3) := by
  after_results_simp

theorem s0_keep_arg4 (V : Valuation τ sig (Elt F)) :
    after hostOps0_2 (after hostOps0_1 (after hostOps0 V)) (Proc.devRef .tc main_arg4) = V (Proc.devRef .tc main_arg4) := by
  after_results_simp

theorem s0_keep_arg5 (V : Valuation τ sig (Elt F)) :
    after hostOps0_2 (after hostOps0_1 (after hostOps0 V)) (Proc.devRef .tc main_arg5) = V (Proc.devRef .tc main_arg5) := by
  after_results_simp

theorem s0_keep_arg6 (V : Valuation τ sig (Elt F)) :
    after hostOps0_2 (after hostOps0_1 (after hostOps0 V)) (Proc.devRef .tc main_arg6) = V (Proc.devRef .tc main_arg6) := by
  after_results_simp

theorem s0_keep_arg7 (V : Valuation τ sig (Elt F)) :
    after hostOps0_2 (after hostOps0_1 (after hostOps0 V)) (Proc.devRef .tc main_arg7) = V (Proc.devRef .tc main_arg7) := by
  after_results_simp

/-! ## Between the first and the second region -/

/-- The first layer's output: the aggregation of the first product, plus bias, its positive part. -/
theorem s1_v52 (V : Valuation τ sig (Elt F)) :
    after hostOps1_1 (after hostOps1 V) (Proc.devRef .tc main_v52)
      = Cert.Spec.relu (F := F) (Cert.Spec.agg (F := F) (V (Proc.devRef .tc main_v35)) (V (Proc.devRef .tc main_v3)) (V (Proc.devRef .tc main_v6)) (V (Proc.devRef .tc main_v34)) (V (Proc.devRef .tc main_arg3))) := by
  after_results_simp
  rfl

theorem s1_keep_v3 (V : Valuation τ sig (Elt F)) :
    after hostOps1_1 (after hostOps1 V) (Proc.devRef .tc main_v3) = V (Proc.devRef .tc main_v3) := by
  after_results_simp

theorem s1_keep_v6 (V : Valuation τ sig (Elt F)) :
    after hostOps1_1 (after hostOps1 V) (Proc.devRef .tc main_v6) = V (Proc.devRef .tc main_v6) := by
  after_results_simp

theorem s1_keep_v34 (V : Valuation τ sig (Elt F)) :
    after hostOps1_1 (after hostOps1 V) (Proc.devRef .tc main_v34) = V (Proc.devRef .tc main_v34) := by
  after_results_simp

theorem s1_keep_arg4 (V : Valuation τ sig (Elt F)) :
    after hostOps1_1 (after hostOps1 V) (Proc.devRef .tc main_arg4) = V (Proc.devRef .tc main_arg4) := by
  after_results_simp

theorem s1_keep_arg5 (V : Valuation τ sig (Elt F)) :
    after hostOps1_1 (after hostOps1 V) (Proc.devRef .tc main_arg5) = V (Proc.devRef .tc main_arg5) := by
  after_results_simp

theorem s1_keep_arg6 (V : Valuation τ sig (Elt F)) :
    after hostOps1_1 (after hostOps1 V) (Proc.devRef .tc main_arg6) = V (Proc.devRef .tc main_arg6) := by
  after_results_simp

theorem s1_keep_arg7 (V : Valuation τ sig (Elt F)) :
    after hostOps1_1 (after hostOps1 V) (Proc.devRef .tc main_arg7) = V (Proc.devRef .tc main_arg7) := by
  after_results_simp

/-! ## Between the second and the third region -/

/-- The second layer's output: the aggregation of the second product, plus bias. -/
theorem s2_v69 (V : Valuation τ sig (Elt F)) :
    after hostOps2 V (Proc.devRef .tc main_v69)
      = Cert.Spec.agg (F := F) (V (Proc.devRef .tc main_v53)) (V (Proc.devRef .tc main_v3)) (V (Proc.devRef .tc main_v6)) (V (Proc.devRef .tc main_v34)) (V (Proc.devRef .tc main_arg5)) := by
  after_results_simp
  rfl

/-- The head's bias as one row. -/
theorem s2_v70 (V : Valuation τ sig (Elt F)) :
    after hostOps2 V (Proc.devRef .tc main_v70) = shapeCast S1x100 (V (Proc.devRef .tc main_arg7)) shapeCasts_S100_S1x100 := by
  after_results_simp
  rfl

theorem s2_keep_arg6 (V : Valuation τ sig (Elt F)) :
    after hostOps2 V (Proc.devRef .tc main_arg6) = V (Proc.devRef .tc main_arg6) := by
  after_results_simp

end Cert.KernelIdeal.KStretch

end
-- ==== Proof.RegionLin.lean ====
/-
  The network's two feature products, block of rows by block of rows.  Each of the first two grids has five points;
  point t takes rows 10000·t … 10000·t + 9999 of a [50000,128] array, multiplies them by the whole [128,128] weight
  (the roundings to bf16 on the way in are the identity on the exact values, and the product accumulates into zero),
  and writes those rows of the output array.  Entry (p, q) of one block's product is Σ_k a[p,k] · b[k,q] over the 128
  features; entry (r, q) of the whole product x · w is Σ_k x[r,k] · w[k,q]; row r of the output is written by point
  r / 10000, at row r − 10000·(r / 10000) of that point's block, and the row of the rows' block there IS row r of x,
  while the weight's block is the whole weight at every point.  So the five blocks together are the whole product:
  `lin0` for the first grid, `lin1` for the second.
-/
import proofs.«109165_j8486855377200_1_alg».proof.Proof.Gen.KernelIdeal.Frame
import proofs.«109165_j8486855377200_1_alg».proof.Proof.Spec
import Idealize.ShloMosaic.Lib.Pipeline.Value
import Idealize.ShloMosaic.Lib.ValueIdx
import Idealize.ShloMosaic.PureOps.Ideal.Laws

noncomputable section

namespace Cert.KernelIdeal.RegionLin

open Idealize.ShloMosaic Idealize.ShloMosaic.TcCoe Idealize.SL.Sem Cert.KernelIdeal Cert.KernelIdeal.Gen
open Idealize.ShloMosaic.ValueIdx

/-! ## The whole product at an index -/

/-- The whole product's left operand index on axis 0 is the output row. -/
theorem whole_lhs_row (i : Cert.ReferenceIdeal.S50000x128.Idx)
    (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl

/-- The whole product's right operand index on axis 1 is the output column. -/
theorem whole_rhs_col (i : Cert.ReferenceIdeal.S50000x128.Idx)
    (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- Entry (r, q) of the whole product x · w is the sum over the 128 features k of x[r, k] · w[k, q]. -/
theorem lin_apply (x : FVec Ideal Cert.ReferenceIdeal.S50000x128 .f32) (w : FVec Ideal Cert.ReferenceIdeal.S128x128 .f32)
    (r : Fin 50000) (q : Fin 128) :
    Cert.Spec.lin (F := Ideal) x w (ix2 r q) = ∑ k : Fin 128, x (ix2 r k) * w (ix2 k q) := by
  unfold Cert.Spec.lin
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q)
      ((contrEquiv1 Cert.ReferenceIdeal.dot_S50000x128_S128x128_S50000x128_1_0_0_1_n_n 128 rfl rfl).symm k) = ix2 r k :=
    funext fun a => Fin.ext (by
      match a with
      | ⟨0, _⟩ => exact whole_lhs_row _ _
      | ⟨1, _⟩ => exact ((Cert.ReferenceIdeal.dot_S50000x128_S128x128_S50000x128_1_0_0_1_n_n.lhsIdx_val_of_single rfl _ _).trans hk))
  have er : Cert.ReferenceIdeal.dot_S50000x128_S128x128_S50000x128_1_0_0_1_n_n.rhsIdx (ix2 r q)
      ((contrEquiv1 Cert.ReferenceIdeal.dot_S50000x128_S128x128_S50000x128_1_0_0_1_n_n 128 rfl rfl).symm k) = ix2 k q :=
    funext fun a => Fin.ext (by
      match a with
      | ⟨0, _⟩ => exact ((Cert.ReferenceIdeal.dot_S50000x128_S128x128_S50000x128_1_0_0_1_n_n.rhsIdx_val_of_single rfl _ _).trans hk)
      | ⟨1, _⟩ => exact whole_rhs_col _ _)
  rw [el, er]

/-! ## One block's product at an index -/

/-- A block product's left operand index on axis 0 is the output row. -/
theorem block_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- A block product's right operand index on axis 1 is the output column. -/
theorem block_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product of a block of 10000 rows with the weight, accumulated into zero, at entry (p, q): the sum over the
    128 features k of a[p, k] · b[k, q]. -/
theorem block_matmul_apply (a : FVec Ideal S10000x128 .bf16) (b : FVec Ideal S128x128 .bf16) (p : Fin 10000) (q : Fin 128) :
    matmul dot_S10000x128_S128x128_S10000x128_1_0_0_1_n_n none a b (constant (F := Ideal) S10000x128 .f32 0x00000000#32) (ix2 p q)
      = ∑ k : Fin 128, a (ix2 p k) * b (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact block_lhs_row _ _
      | ⟨1, _⟩ => exact ((dot_S10000x128_S128x128_S10000x128_1_0_0_1_n_n.lhsIdx_val_of_single rfl _ _).trans hk))
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact ((dot_S10000x128_S128x128_S10000x128_1_0_0_1_n_n.rhsIdx_val_of_single rfl _ _).trans hk)
      | ⟨1, _⟩ => exact block_rhs_col _ _)
  rw [el, er]

/-- Region 0's payload at entry (p, q) of its block: the roundings to bf16 are the identity on the exact values. -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  exact block_matmul_apply _ _ p q

/-- Region 1's payload likewise (its extra cast of the block to its own shape changes nothing). -/
theorem pay1_apply (x0 : Vec Ideal S10000x128 .f32) (x1 : Vec Ideal S128x128 .f32) (p : Fin 10000) (q : Fin 128) :
    k1_pay1 (F := Ideal) x0 x1 (ix2 p q) = ∑ k : Fin 128, x0 (ix2 p k) * x1 (ix2 k q) := by
  unfold k1_pay1
  simp only [shapeCast_self]
  exact block_matmul_apply _ _ p q

/-! ## From the blocks to the array: region 0 -/

/-- The zero offsets of a whole-buffer access, as a constant function. -/
theorem zero_offsets : (![0, 0] : Fin 2 → Nat) = fun _ => 0 := funext fun a => by fin_cases a <;> rfl

/-- The printed index maps of region 0 over its grid: at point t the rows' window and the output's window sit at block
    (t, 0), the weight's window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows' block at point t is rows 10000·t … 10000·t + 9999 of the array the region reads. -/
theorem rows0_apply (V : (c : Dev nD) → (b : Ref sig .tc) → Buf (Elt Ideal) ((c : Thread nD τ).loc b)) (c : Dev nD)
    (t : Fin cfg0.N) (p : Fin 10000) (k : Fin 128) (r : Fin 50000) (hr : r.val = t.val * 10000 + p.val) :
    (iblk0 (F := Ideal) V c 0 t : Vec Ideal S10000x128 .f32) (ix2 p k) = (V c main_arg0 : S50000x128.Idx → EReal) (ix2 r k) := by
  obtain ⟨e0, e1, -, -, -, -⟩ := idx_facts0 t
  unfold iblk0
  rw [View.read_apply]
  show (V c main_arg0 : S50000x128.Idx → EReal) (((cfg0.win 0).blk t).view.emb (ix2 p k)) = _
  refine congrArg _ ?_
  funext a
  apply Fin.ext
  match a with
  | ⟨0, _⟩ => show win0_0.index t (0 : Fin 2) * 10000 + 1 * p.val = r.val; omega
  | ⟨1, _⟩ => show win0_0.index t (1 : Fin 2) * 128 + 1 * k.val = k.val; omega

/-- The weight's block at every point is the whole weight. -/
theorem weight0_apply (V : (c : Dev nD) → (b : Ref sig .tc) → Buf (Elt Ideal) ((c : Thread nD τ).loc b)) (c : Dev nD)
    (t : Fin cfg0.N) (k : Fin 128) (q : Fin 128) :
    (iblk0 (F := Ideal) V c 1 t : Vec Ideal S128x128 .f32) (ix2 k q) = (V c main_arg2 : S128x128.Idx → EReal) (ix2 k q) := by
  obtain ⟨-, -, e2, e3, -, -⟩ := idx_facts0 t
  unfold iblk0
  rw [View.read_apply]
  show (V c main_arg2 : S128x128.Idx → EReal) (((cfg0.win 1).blk t).view.emb (ix2 k q)) = _
  refine congrArg _ ?_
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- WHAT POINT t WRITES BACK: rows 10000·t … 10000·t + 9999 of the whole product. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.lin (F := Ideal) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x128) zero_offsets, View.ld_unit_zero (S := S128x128) zero_offsets]
  obtain ⟨-, -, -, -, e4, e5⟩ := idx_facts0 t
  funext j
  obtain ⟨p, q, rfl⟩ : ∃ (p : Fin 10000) (q : Fin 128), j = ix2 p q := ⟨j 0, j 1, eq_ix2 j⟩
  have hp : p.val < 10000 := p.isLt
  have ht : t.val < 5 := by have := t.isLt; have hN : cfg0.N = 5 := N_0; omega
  show k0_pay1 (F := Ideal) (iblk0 (F := Ideal) V c 0 t) (iblk0 (F := Ideal) V c 1 t) (ix2 p q)
    = Cert.Spec.lin (F := Ideal) (V c main_arg0) (V c main_arg2) (((cfg0.win 2).blk t).view.emb (ix2 p q))
  have hemb : ((cfg0.win 2).blk t).view.emb (ix2 p q) = (ix2 (⟨t.val * 10000 + p.val, by omega⟩ : Fin 50000) q : S50000x128.Idx) := by
    funext a
    apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [hemb, pay0_apply, lin_apply]
  refine Finset.sum_congr rfl fun k _ => ?_
  rw [rows0_apply V c t p k ⟨t.val * 10000 + p.val, by omega⟩ rfl, weight0_apply V c t k q]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v35).slice (win0_2.rect t)).set ↔ _
  rw [View.set_slice_whole, Rect.mem_set_unit]
  exact Iff.rfl

/-- THE COVER: row r of the output array is written back by point r / 10000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  have ht : (i 0).val / 10000 < cfg0.N := by rw [hN]; omega
  obtain ⟨-, -, -, -, e4, e5⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- Region 0's output array after its five points: the whole product of the two arrays it reads. -/
theorem lin0 (V : (c : Dev nD) → (b : Ref sig .tc) → Buf (Elt Ideal) ((c : Thread nD τ).loc b)) (c : Dev nD) :
    (dat0 (F := Ideal) V c).arrAt 2 cfg0.N = Cert.Spec.lin (F := Ideal) (V c main_arg0) (V c main_arg2) :=
  (dat0 (F := Ideal) V c).arrAt_eq_of_cover 2 (Cert.Spec.lin (F := Ideal) (V c main_arg0) (V c main_arg2))
    (fun t _ => flushed0_eq V c t) cover0

/-! ## From the blocks to the array: region 1 -/

/-- The printed index maps of region 1 over its grid: at point t the rows' window and the output's window sit at block
    (t, 0), the weight's window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The rows' block at point t is rows 10000·t … 10000·t + 9999 of the array the region reads. -/
theorem rows1_apply (V : (c : Dev nD) → (b : Ref sig .tc) → Buf (Elt Ideal) ((c : Thread nD τ).loc b)) (c : Dev nD)
    (t : Fin cfg1.N) (p : Fin 10000) (k : Fin 128) (r : Fin 50000) (hr : r.val = t.val * 10000 + p.val) :
    (iblk1 (F := Ideal) V c 0 t : Vec Ideal S10000x128 .f32) (ix2 p k) = (V c main_v52 : S50000x128.Idx → EReal) (ix2 r k) := by
  obtain ⟨e0, e1, -, -, -, -⟩ := idx_facts1 t
  unfold iblk1
  rw [View.read_apply]
  show (V c main_v52 : S50000x128.Idx → EReal) (((cfg1.win 0).blk t).view.emb (ix2 p k)) = _
  refine congrArg _ ?_
  funext a
  apply Fin.ext
  match a with
  | ⟨0, _⟩ => show win1_0.index t (0 : Fin 2) * 10000 + 1 * p.val = r.val; omega
  | ⟨1, _⟩ => show win1_0.index t (1 : Fin 2) * 128 + 1 * k.val = k.val; omega

/-- The weight's block at every point is the whole weight. -/
theorem weight1_apply (V : (c : Dev nD) → (b : Ref sig .tc) → Buf (Elt Ideal) ((c : Thread nD τ).loc b)) (c : Dev nD)
    (t : Fin cfg1.N) (k : Fin 128) (q : Fin 128) :
    (iblk1 (F := Ideal) V c 1 t : Vec Ideal S128x128 .f32) (ix2 k q) = (V c main_arg4 : S128x128.Idx → EReal) (ix2 k q) := by
  obtain ⟨-, -, e2, e3, -, -⟩ := idx_facts1 t
  unfold iblk1
  rw [View.read_apply]
  show (V c main_arg4 : S128x128.Idx → EReal) (((cfg1.win 1).blk t).view.emb (ix2 k q)) = _
  refine congrArg _ ?_
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

/-- WHAT POINT t WRITES BACK: rows 10000·t … 10000·t + 9999 of the whole product. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.lin (F := Ideal) (V c main_v52) (V c main_arg4)) := by
  show (cfg1.win 2).cut (grid1.coords t) ((dat1 (F := Ideal) V c).after 2 t) = _
  rw [after1_2]
  unfold out1_2
  rw [View.canon_unit_zero zero_offsets]
  simp only [View.ld_unit_zero (S := S10000x128) zero_offsets, View.ld_unit_zero (S := S128x128) zero_offsets]
  obtain ⟨-, -, -, -, e4, e5⟩ := idx_facts1 t
  funext j
  obtain ⟨p, q, rfl⟩ : ∃ (p : Fin 10000) (q : Fin 128), j = ix2 p q := ⟨j 0, j 1, eq_ix2 j⟩
  have hp : p.val < 10000 := p.isLt
  have ht : t.val < 5 := by have := t.isLt; have hN : cfg1.N = 5 := N_1; omega
  show k1_pay1 (F := Ideal) (iblk1 (F := Ideal) V c 0 t) (iblk1 (F := Ideal) V c 1 t) (ix2 p q)
    = Cert.Spec.lin (F := Ideal) (V c main_v52) (V c main_arg4) (((cfg1.win 2).blk t).view.emb (ix2 p q))
  have hemb : ((cfg1.win 2).blk t).view.emb (ix2 p q) = (ix2 (⟨t.val * 10000 + p.val, by omega⟩ : Fin 50000) q : S50000x128.Idx) := by
    funext a
    apply Fin.ext
    match a with
    | ⟨0, _⟩ => show win1_2.index t (0 : Fin 2) * 10000 + 1 * p.val = t.val * 10000 + p.val; omega
    | ⟨1, _⟩ => show win1_2.index t (1 : Fin 2) * 128 + 1 * q.val = q.val; omega
  rw [hemb, pay1_apply, lin_apply]
  refine Finset.sum_congr rfl fun k _ => ?_
  rw [rows1_apply V c t p k ⟨t.val * 10000 + p.val, by omega⟩ rfl, weight1_apply V c t k q]

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v53).slice (win1_2.rect t)).set ↔ _
  rw [View.set_slice_whole, Rect.mem_set_unit]
  exact Iff.rfl

/-- THE COVER: row r of the output array is written back by point r / 10000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  have ht : (i 0).val / 10000 < cfg1.N := by rw [hN]; omega
  obtain ⟨-, -, -, -, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    rw [e5]; omega

/-- Region 1's output array after its five points, likewise. -/
theorem lin1 (V : (c : Dev nD) → (b : Ref sig .tc) → Buf (Elt Ideal) ((c : Thread nD τ).loc b)) (c : Dev nD) :
    (dat1 (F := Ideal) V c).arrAt 2 cfg1.N = Cert.Spec.lin (F := Ideal) (V c main_v52) (V c main_arg4) :=
  (dat1 (F := Ideal) V c).arrAt_eq_of_cover 2 (Cert.Spec.lin (F := Ideal) (V c main_v52) (V c main_arg4))
    (fun t _ => flushed1_eq V c t) cover1

end Cert.KernelIdeal.RegionLin

end
-- ==== Proof.RegionHead.lean ====
/-
  The network's head, block of rows by block of rows.  The third grid has five points; point t takes rows
  10000·t … 10000·t + 9999 of a [50000,128] array h, the whole [128,100] weight w and the one bias row b, forms the
  scores  s[p, j] = Σ_k h[p, k] · w[k, j] + b[j]  over the 128 features (the roundings to bf16 on the way into the
  product are the identity on the exact values, and the product accumulates into zero), and stores each row's softmax:
  with  m = max(-∞, max_j s[p, j])  (the maximum folded from -∞ and taken against -∞ once more), entry (p, q) is
  exp(s[p, q] − m) / Σ_j exp(s[p, j] − m).

  A row's softmax reads that row's 100 scores and nothing else, and a row's scores read that row of h, the weight and
  the bias.  So both sides are ONE function of a row's scores, `rowSoftmax`: the whole-array softmax at (r, q) is it at
  the scores of row r (`softmax_apply`, `logits_apply`), and a block's stored value at (p, q) is it at the scores of the
  block's row p (`pay_apply`); the two maxima are carried as the same fold of `max` over the row and never evaluated.
  Row r of the output is written by point r / 10000, at row r − 10000·(r / 10000) of that point's block, where the
  rows' block holds row r of h, while the weight's and the bias row's blocks are the whole arrays at every point
  (the bias row is the bias vector recast as [1,100], read at (0, j) as its entry j).  Hence the five blocks together
  are the whole-array softmax of the whole-array scores: `head2`.
-/
import proofs.«109165_j8486855377200_1_alg».proof.Proof.Gen.KernelIdeal.Frame
import proofs.«109165_j8486855377200_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.RegionHead

open Idealize.ShloMosaic Idealize.ShloMosaic.TcCoe Idealize.SL.Sem Cert.KernelIdeal Cert.KernelIdeal.Gen
open Idealize.ShloMosaic.ValueIdx

/-! ## One row's softmax -/

/-- The value every maximum of a row starts from: the f32 word of minus infinity, read as an extended real. -/
abbrev floorVal : EReal := Ideal.ofBits .f32 0xFF800000#32

/-- A row's largest score: the maximum folded from the starting value over the row's 100 scores, then taken against
    the starting value once more (both programs do both). -/
def rowTop (s : Fin 100 → EReal) : EReal :=
  max floorVal ((Finset.univ : Finset (Fin 100)).fold max floorVal s)

/-- Entry `q` of the softmax of a row with scores `s`: the exponential of the score less the row's largest one,
    over the sum of those exponentials along the row. -/
def rowSoftmax (s : Fin 100 → EReal) (q : Fin 100) : EReal :=
  Ideal.div (Ideal.exp (s q - rowTop s)) (∑ k : Fin 100, Ideal.exp (s k - rowTop s))

/-- The scores of row `r` of an array of `n` rows: the row times the weight matrix over the 128 features, plus the bias. -/
def rowScores {n : ℕ} (h : (⟨2, ![n, 128]⟩ : Shape).Idx → EReal) (wa : (⟨2, ![128, 100]⟩ : Shape).Idx → EReal)
    (b : Fin 100 → EReal) (r : Fin n) (j : Fin 100) : EReal :=
  ∑ k : Fin 128, h (ix2 r k) * wa (ix2 k j) + b j

/-! ## The two matrix products' operand indices

The whole product [50000,128] · [128,100] and a block's product [10000,128] · [128,100] contract the one axis of 128
features: at output entry (r, j) and contracted coordinate k the operands are read at (r, k) and (k, j). -/

/-- The whole product: the left operand's row is the output's row. -/
theorem wholeDot_lhs0 (i : Cert.ReferenceIdeal.S50000x100.Idx) (q : Cert.ReferenceIdeal.dot_S50000x128_S128x100_S50000x100_1_0_0_1_n_n.contr.Idx) : (Cert.ReferenceIdeal.dot_S50000x128_S128x100_S50000x100_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x100_S50000x100_1_0_0_1_n_n.lhsBatch by decide), dif_pos (show (0 : Fin Cert.ReferenceIdeal.S50000x128.rank) ∈ Cert.ReferenceIdeal.dot_S50000x128_S128x100_S50000x100_1_0_0_1_n_n.lhsNonContracting by decide)]
  rfl
/-- The whole product: the left operand's column is the contracted coordinate. -/
theorem wholeDot_lhs1 (i : Cert.ReferenceIdeal.S50000x100.Idx) (q : Cert.ReferenceIdeal.dot_S50000x128_S128x100_S50000x100_1_0_0_1_n_n.contr.Idx) : (Cert.ReferenceIdeal.dot_S50000x128_S128x100_S50000x100_1_0_0_1_n_n.lhsIdx i q 1).val = (q ⟨0, by decide⟩).val :=
  Cert.ReferenceIdeal.dot_S50000x128_S128x100_S50000x100_1_0_0_1_n_n.lhsIdx_val_of_single rfl i q
/-- The whole product: the right operand's row is the contracted coordinate. -/
theorem wholeDot_rhs0 (i : Cert.ReferenceIdeal.S50000x100.Idx) (q : Cert.ReferenceIdeal.dot_S50000x128_S128x100_S50000x100_1_0_0_1_n_n.contr.Idx) : (Cert.ReferenceIdeal.dot_S50000x128_S128x100_S50000x100_1_0_0_1_n_n.rhsIdx i q 0).val = (q ⟨0, by decide⟩).val :=
  Cert.ReferenceIdeal.dot_S50000x128_S128x100_S50000x100_1_0_0_1_n_n.rhsIdx_val_of_single rfl i q
/-- The whole product: the right operand's column is the output's column. -/
theorem wholeDot_rhs1 (i : Cert.ReferenceIdeal.S50000x100.Idx) (q : Cert.ReferenceIdeal.dot_S50000x128_S128x100_S50000x100_1_0_0_1_n_n.contr.Idx) : (Cert.ReferenceIdeal.dot_S50000x128_S128x100_S50000x100_1_0_0_1_n_n.rhsIdx i q 1).val = (i 1).val := by
  unfold DotDims.rhsIdx
  rw [dif_neg (show ¬(1 : Fin Cert.ReferenceIdeal.S128x100.rank) ∈ Cert.ReferenceIdeal.dot_S50000x128_S128x100_S50000x100_1_0_0_1_n_n.rhsBatch by decide), dif_pos (show (1 : Fin Cert.ReferenceIdeal.S128x100.rank) ∈ Cert.ReferenceIdeal.dot_S50000x128_S128x100_S50000x100_1_0_0_1_n_n.rhsNonContracting by decide)]
  rfl
/-- The contraction's sum, re-indexed by the one contracted coordinate: operand indices `(r, k)` and `(k, j)`. -/
theorem wholeDot_sum (x : Cert.ReferenceIdeal.S50000x128.Idx → EReal) (y : Cert.ReferenceIdeal.S128x100.Idx → EReal) (r : Fin 50000) (j : Fin 100) :
    ∑ k : Cert.ReferenceIdeal.dot_S50000x128_S128x100_S50000x100_1_0_0_1_n_n.contr.Idx, x (Cert.ReferenceIdeal.dot_S50000x128_S128x100_S50000x100_1_0_0_1_n_n.lhsIdx (ix2 r j) k) * y (Cert.ReferenceIdeal.dot_S50000x128_S128x100_S50000x100_1_0_0_1_n_n.rhsIdx (ix2 r j) k)
      = ∑ k : Fin 128, x (ix2 r k) * y (ix2 k j) := by
  rw [← Equiv.sum_comp (contrEquiv1 Cert.ReferenceIdeal.dot_S50000x128_S128x100_S50000x100_1_0_0_1_n_n 128 rfl rfl).symm]
  refine Finset.sum_congr rfl fun k _ => ?_
  have hk := contrEquiv1_symm_val Cert.ReferenceIdeal.dot_S50000x128_S128x100_S50000x100_1_0_0_1_n_n 128 rfl rfl k
  have el : Cert.ReferenceIdeal.dot_S50000x128_S128x100_S50000x100_1_0_0_1_n_n.lhsIdx (ix2 r j) ((contrEquiv1 Cert.ReferenceIdeal.dot_S50000x128_S128x100_S50000x100_1_0_0_1_n_n 128 rfl rfl).symm k) = ix2 r k := funext fun a => Fin.ext (by
    match a with
    | ⟨0, _⟩ => exact wholeDot_lhs0 _ _
    | ⟨1, _⟩ => exact (wholeDot_lhs1 _ _).trans hk)
  have er : Cert.ReferenceIdeal.dot_S50000x128_S128x100_S50000x100_1_0_0_1_n_n.rhsIdx (ix2 r j) ((contrEquiv1 Cert.ReferenceIdeal.dot_S50000x128_S128x100_S50000x100_1_0_0_1_n_n 128 rfl rfl).symm k) = ix2 k j := funext fun a => Fin.ext (by
    match a with
    | ⟨0, _⟩ => exact (wholeDot_rhs0 _ _).trans hk
    | ⟨1, _⟩ => exact wholeDot_rhs1 _ _)
  rw [el, er]

/-- A block's product: the left operand's row is the output's row. -/
theorem blockDot_lhs0 (i : S10000x100.Idx) (q : dot_S10000x128_S128x100_S10000x100_1_0_0_1_n_n.contr.Idx) : (dot_S10000x128_S128x100_S10000x100_1_0_0_1_n_n.lhsIdx i q 0).val = (i 0).val := by
  unfold DotDims.lhsIdx
  rw [dif_neg (show ¬(0 : Fin S10000x128.rank) ∈ dot_S10000x128_S128x100_S10000x100_1_0_0_1_n_n.lhsBatch by decide), dif_pos (show (0 : Fin S10000x128.rank) ∈ dot_S10000x128_S128x100_S10000x100_1_0_0_1_n_n.lhsNonContracting by decide)]
  rfl
/-- A block's product: the left operand's column is the contracted coordinate. -/
theorem blockDot_lhs1 (i : S10000x100.Idx) (q : dot_S10000x128_S128x100_S10000x100_1_0_0_1_n_n.contr.Idx) : (dot_S10000x128_S128x100_S10000x100_1_0_0_1_n_n.lhsIdx i q 1).val = (q ⟨0, by decide⟩).val :=
  dot_S10000x128_S128x100_S10000x100_1_0_0_1_n_n.lhsIdx_val_of_single rfl i q
/-- A block's product: the right operand's row is the contracted coordinate. -/
theorem blockDot_rhs0 (i : S10000x100.Idx) (q : dot_S10000x128_S128x100_S10000x100_1_0_0_1_n_n.contr.Idx) : (dot_S10000x128_S128x100_S10000x100_1_0_0_1_n_n.rhsIdx i q 0).val = (q ⟨0, by decide⟩).val :=
  dot_S10000x128_S128x100_S10000x100_1_0_0_1_n_n.rhsIdx_val_of_single rfl i q
/-- A block's product: the right operand's column is the output's column. -/
theorem blockDot_rhs1 (i : S10000x100.Idx) (q : dot_S10000x128_S128x100_S10000x100_1_0_0_1_n_n.contr.Idx) : (dot_S10000x128_S128x100_S10000x100_1_0_0_1_n_n.rhsIdx i q 1).val = (i 1).val := by
  unfold DotDims.rhsIdx
  rw [dif_neg (show ¬(1 : Fin S128x100.rank) ∈ dot_S10000x128_S128x100_S10000x100_1_0_0_1_n_n.rhsBatch by decide), dif_pos (show (1 : Fin S128x100.rank) ∈ dot_S10000x128_S128x100_S10000x100_1_0_0_1_n_n.rhsNonContracting by decide)]
  rfl
/-- The contraction's sum, re-indexed by the one contracted coordinate: operand indices `(r, k)` and `(k, j)`. -/
theorem blockDot_sum (x : S10000x128.Idx → EReal) (y : S128x100.Idx → EReal) (r : Fin 10000) (j : Fin 100) :
    ∑ k : dot_S10000x128_S128x100_S10000x100_1_0_0_1_n_n.contr.Idx, x (dot_S10000x128_S128x100_S10000x100_1_0_0_1_n_n.lhsIdx (ix2 r j) k) * y (dot_S10000x128_S128x100_S10000x100_1_0_0_1_n_n.rhsIdx (ix2 r j) k)
      = ∑ k : Fin 128, x (ix2 r k) * y (ix2 k j) := by
  rw [← Equiv.sum_comp (contrEquiv1 dot_S10000x128_S128x100_S10000x100_1_0_0_1_n_n 128 rfl rfl).symm]
  refine Finset.sum_congr rfl fun k _ => ?_
  have hk := contrEquiv1_symm_val dot_S10000x128_S128x100_S10000x100_1_0_0_1_n_n 128 rfl rfl k
  have el : dot_S10000x128_S128x100_S10000x100_1_0_0_1_n_n.lhsIdx (ix2 r j) ((contrEquiv1 dot_S10000x128_S128x100_S10000x100_1_0_0_1_n_n 128 rfl rfl).symm k) = ix2 r k := funext fun a => Fin.ext (by
    match a with
    | ⟨0, _⟩ => exact blockDot_lhs0 _ _
    | ⟨1, _⟩ => exact (blockDot_lhs1 _ _).trans hk)
  have er : dot_S10000x128_S128x100_S10000x100_1_0_0_1_n_n.rhsIdx (ix2 r j) ((contrEquiv1 dot_S10000x128_S128x100_S10000x100_1_0_0_1_n_n 128 rfl rfl).symm k) = ix2 k j := funext fun a => Fin.ext (by
    match a with
    | ⟨0, _⟩ => exact (blockDot_rhs0 _ _).trans hk
    | ⟨1, _⟩ => exact blockDot_rhs1 _ _)
  rw [el, er]

/-! ## The whole-array side, read at an index -/

/-- The whole-array scores at `(r, j)`: the product's sum over the features plus entry `j` of the bias (recast as one
    row, then repeated down the 50000 rows). -/
theorem logits_apply (h : FVec Ideal S50000x128 .f32) (wa : FVec Ideal S128x100 .f32) (ba : FVec Ideal S100 .f32)
    (r : Fin 50000) (j : Fin 100) :
    Cert.Spec.logits (F := Ideal) h wa ba (ix2 r j) = rowScores h wa (fun j => ba (ix1 j)) r j := by
  unfold Cert.Spec.logits rowScores
  refine (addf_apply _ _ _).trans ?_
  refine congrArg₂ (· + ·) ?_ ?_
  · simp only [Host.dotGeneral]
    rw [Ideal.dotGeneral_apply]
    exact wholeDot_sum h wa r j
  · refine (broadcastInDim_apply _ Cert.ReferenceIdeal.Gen.bcast_S1x100_S50000x100_0_1 _ (ix2 r j) (ix2 (0 : Fin 1) j) (fun a => match a with
      | ⟨0, _⟩ => by show 0 = if (1 : Nat) = 1 then 0 else r.val; rw [if_pos rfl]
      | ⟨1, _⟩ => by show j.val = if (100 : Nat) = 1 then 0 else j.val; rw [if_neg (by decide)])).trans ?_
    exact broadcastInDim_apply _ Cert.ReferenceIdeal.Gen.bcast_S100_S1x100_1 ba (ix2 (0 : Fin 1) j) (ix1 j) (fun a => match a with
      | ⟨0, _⟩ => by show j.val = if (100 : Nat) = 1 then 0 else j.val; rw [if_neg (by decide)])

/-- A row's largest score, on the whole array: the reduction over the columns at row `r` is the fold over that row's
    100 entries. -/
theorem rowMax_apply (l : FVec Ideal S50000x100 .f32) (r : Fin 50000) :
    Cert.Spec.rowMax (F := Ideal) l (ix1 r) = rowTop (fun j => l (ix2 r j)) := by
  unfold Cert.Spec.rowMax rowTop
  refine (maximumf_apply _ _ _).trans ?_
  refine congrArg₂ max rfl ?_
  refine (Host.reduce_eq_fold_single FloatOps.maximumf l _ _
    (by decide : Shape.Reduces Cert.ReferenceIdeal.S50000x100 [1] Cert.ReferenceIdeal.S50000) _ (ix1 r)).trans ?_
  refine congrArg (fun f : Fin 100 → EReal => (Finset.univ : Finset (Fin 100)).fold max floorVal f) (funext fun k => ?_)
  exact congrArg l (funext fun a => Fin.ext (by match a with | ⟨0, _⟩ => rfl | ⟨1, _⟩ => rfl))

/-- The shifted exponential at `(r, q)`, on the whole array: the column of row maxima, repeated along the row, reads
    row `r`'s maximum. -/
theorem expShift_apply (l : FVec Ideal S50000x100 .f32) (r : Fin 50000) (q : Fin 100) :
    Cert.Spec.expShift (F := Ideal) l (ix2 r q) = Ideal.exp (l (ix2 r q) - rowTop (fun j => l (ix2 r j))) := by
  unfold Cert.Spec.expShift
  show Ideal.exp (l (ix2 r q) - _) = _
  refine congrArg (fun m => Ideal.exp (l (ix2 r q) - m)) ?_
  refine (broadcastInDim_apply _ Cert.ReferenceIdeal.Gen.bcast_S50000x1_S50000x100_0_1 _ (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl])).trans ?_
  refine (broadcastInDim_apply _ Cert.ReferenceIdeal.Gen.bcast_S50000_S50000x1_0 _ (ix2 r (0 : Fin 1)) (ix1 r) (fun a => match a with
      | ⟨0, _⟩ => by show r.val = if (50000 : Nat) = 1 then 0 else r.val; rw [if_neg (by decide)])).trans ?_
  exact rowMax_apply l r

/-- The whole-array softmax at `(r, q)` is the row function of row `r`: the sum over the columns starts from zero and
    runs over that row's 100 shifted exponentials. -/
theorem softmax_apply (l : FVec Ideal S50000x100 .f32) (r : Fin 50000) (q : Fin 100) :
    Cert.Spec.softmax (F := Ideal) l (ix2 r q) = rowSoftmax (fun j => l (ix2 r j)) q := by
  unfold Cert.Spec.softmax rowSoftmax
  refine (hostDivf_apply _ _ _).trans ?_
  refine congrArg₂ Ideal.div (expShift_apply l r q) ?_
  refine (broadcastInDim_apply _ Cert.ReferenceIdeal.Gen.bcast_S50000x1_S50000x100_0_1 _ (ix2 r q) (ix2 r (0 : Fin 1)) (fun a => match a with
      | ⟨0, _⟩ => by show r.val = if (50000 : Nat) = 1 then 0 else r.val; rw [if_neg (by decide)]
      | ⟨1, _⟩ => by show 0 = if (1 : Nat) = 1 then 0 else q.val; rw [if_pos rfl])).trans ?_
  refine (broadcastInDim_apply _ Cert.ReferenceIdeal.Gen.bcast_S50000_S50000x1_0 _ (ix2 r (0 : Fin 1)) (ix1 r) (fun a => match a with
      | ⟨0, _⟩ => by show r.val = if (50000 : Nat) = 1 then 0 else r.val; rw [if_neg (by decide)])).trans ?_
  refine (hostReduceAdd_apply _ _ _ _ _).trans ?_
  refine (Ideal.hostReduceAdd_single _
    (by decide : Shape.Reduces Cert.ReferenceIdeal.S50000x100 [1] Cert.ReferenceIdeal.S50000) _ _ _).trans ?_
  refine (congrArg (· + _) Ideal.ofBits_zero_f32).trans ((zero_add _).trans ?_)
  refine Finset.sum_congr rfl fun k _ => ?_
  refine Eq.trans (congrArg (Cert.Spec.expShift (F := Ideal) l) (funext fun a => Fin.ext (by match a with | ⟨0, _⟩ => rfl | ⟨1, _⟩ => rfl))) (expShift_apply l r k)

/-! ## The column forms of a kept reduced axis -/

section Columns
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The block's stored value, read at an index -/

/-- The block's scores as the body forms them: the product of the rows' block with the weight into zero, plus the one
    bias row repeated down the block's rows. -/
def blockScores (x0 : Vec Ideal S10000x128 .f32) (x1 : Vec Ideal S128x100 .f32) (x2 : Vec Ideal S1x100 .f32) : FVec Ideal S10000x100 .f32 :=
  addf (F := Ideal) (matmul dot_S10000x128_S128x100_S10000x100_1_0_0_1_n_n none
      (truncf (F := Ideal) .bf16 (shapeCast S10000x128 x0 shapeCasts_S10000x128_S10000x128) bitsLt_bf16_f32)
      (truncf (F := Ideal) .bf16 x1 bitsLt_bf16_f32) (constant (F := Ideal) S10000x100 .f32 0x00000000#32))
    (broadcastTo S10000x100 (shapeCast S1x100 x2 shapeCasts_S1x100_S1x100) broadcasts_S1x100_S10000x100)

/-- The block's row maxima as the body forms them. -/
def blockTop (v : FVec Ideal S10000x100 .f32) : FVec Ideal S10000 .f32 :=
  maximumf (F := Ideal) (broadcast S10000 (Scalar.ofBits (F := Ideal) .f32 0xFF800000#32))
    (multiReduction (F := Ideal) .maximumf [1] S10000 v 0xFF800000#32 reduces_S10000x100_S10000 (.inl rfl) rfl)

/-- The block's shifted exponentials as the body forms them: the maxima as a column, repeated along each row. -/
def blockExp (v : FVec Ideal S10000x100 .f32) : FVec Ideal S10000x100 .f32 :=
  exp (F := Ideal) (subf (F := Ideal) v
    (broadcastTo S10000x100 (shapeCast S10000x1 (blockTop v) shapeCasts_S10000_S10000x1) broadcasts_S10000x1_S10000x100))

/-- The block's softmax as the body forms it: the row sums as a column, repeated along each row, divide. -/
def blockSoftmax (v : FVec Ideal S10000x100 .f32) : FVec Ideal S10000x100 .f32 :=
  divf (F := Ideal) (blockExp v)
    (broadcastTo S10000x100 (shapeCast S10000x1
      (multiReduction (F := Ideal) .add [1] S10000 (blockExp v) 0x00000000#32 reduces_S10000x100_S10000 (.inl rfl) rfl)
      shapeCasts_S10000_S10000x1) broadcasts_S10000x1_S10000x100)

/-- The body's stored value is those four steps. -/
theorem pay_eq (x0 : Vec Ideal S10000x128 .f32) (x1 : Vec Ideal S128x100 .f32) (x2 : Vec Ideal S1x100 .f32) :
    k2_pay1 (F := Ideal) x0 x1 x2 = blockSoftmax (blockScores x0 x1 x2) := rfl

/-- The block's scores at `(p, j)`: the roundings to bf16 and the casts of a block to its own shape change nothing. -/
theorem blockScores_apply (x0 : Vec Ideal S10000x128 .f32) (x1 : Vec Ideal S128x100 .f32) (x2 : Vec Ideal S1x100 .f32)
    (p : Fin 10000) (j : Fin 100) :
    blockScores x0 x1 x2 (ix2 p j) = rowScores x0 x1 (fun j => x2 (ix2 (0 : Fin 1) j)) p j := by
  unfold blockScores rowScores
  refine (addf_apply _ _ _).trans ?_
  refine congrArg₂ (· + ·) ?_ ?_
  · simp only [matmul]
    rw [Ideal.matmul_constant_zero_apply, shapeCast_self]
    exact blockDot_sum x0 x1 p j
  · rw [shapeCast_self]
    exact broadcastTo_1b_ab_apply x2 _ p j

/-- A row's largest score, on the block: the reduction over the columns at row `p` is the fold over that row's 100
    entries, from the same starting value as on the whole array. -/
theorem blockTop_apply (v : FVec Ideal S10000x100 .f32) (p : Fin 10000) :
    blockTop v (ix1 p) = rowTop (fun j => v (ix2 p j)) := by
  unfold blockTop rowTop
  refine (maximumf_apply _ _ _).trans ?_
  refine congrArg₂ max rfl ?_
  refine (Ideal.multiReduction_maximumf_single v 0xFF800000#32 reduces_S10000x100_S10000 _ _ (ix1 p)).trans ?_
  refine congrArg (fun f : Fin 100 → EReal => (Finset.univ : Finset (Fin 100)).fold max floorVal f) (funext fun k => ?_)
  exact congrArg v (funext fun a => Fin.ext (by match a with | ⟨0, _⟩ => rfl | ⟨1, _⟩ => rfl))

/-- The shifted exponential at `(p, q)`, on the block. -/
theorem blockExp_apply (v : FVec Ideal S10000x100 .f32) (p : Fin 10000) (q : Fin 100) :
    blockExp v (ix2 p q) = Ideal.exp (v (ix2 p q) - rowTop (fun j => v (ix2 p j))) := by
  unfold blockExp
  show Ideal.exp (v (ix2 p q) - _) = _
  refine congrArg (fun m => Ideal.exp (v (ix2 p q) - m)) ?_
  refine (broadcastTo_a1_ab_apply _ _ p q).trans ?_
  refine (shapeCast_a_a1_apply _ _ p 0).trans ?_
  exact blockTop_apply v p

/-- The block's softmax at `(p, q)` is the row function of the block's row `p`. -/
theorem blockSoftmax_apply (v : FVec Ideal S10000x100 .f32) (p : Fin 10000) (q : Fin 100) :
    blockSoftmax v (ix2 p q) = rowSoftmax (fun j => v (ix2 p j)) q := by
  unfold blockSoftmax rowSoftmax
  refine (divf_apply _ _ _).trans ?_
  refine congrArg₂ Ideal.div (blockExp_apply v p q) ?_
  refine (broadcastTo_a1_ab_apply _ _ p q).trans ?_
  refine (shapeCast_a_a1_apply _ _ p 0).trans ?_
  refine (Ideal.multiReduction_add_single (blockExp v) 0x00000000#32 reduces_S10000x100_S10000 _ _ (ix1 p)).trans ?_
  refine Finset.sum_congr rfl fun k _ => ?_
  refine Eq.trans (congrArg (blockExp v) (funext fun a => Fin.ext (by match a with | ⟨0, _⟩ => rfl | ⟨1, _⟩ => rfl))) (blockExp_apply v p k)

/-- The body's stored value at `(p, q)`: the row function of the scores of the block's row `p`. -/
theorem pay_apply (x0 : Vec Ideal S10000x128 .f32) (x1 : Vec Ideal S128x100 .f32) (x2 : Vec Ideal S1x100 .f32)
    (p : Fin 10000) (q : Fin 100) :
    k2_pay1 (F := Ideal) x0 x1 x2 (ix2 p q) = rowSoftmax (rowScores x0 x1 (fun j => x2 (ix2 (0 : Fin 1) j)) p) q := by
  rw [pay_eq]
  refine (blockSoftmax_apply _ p q).trans ?_
  exact congrArg (fun s => rowSoftmax s q) (funext fun j => blockScores_apply x0 x1 x2 p j)

/-! ## From the blocks to the array -/

/-- The zero offsets of a whole-buffer access, as a constant function. -/
theorem zero_offsets : (![0, 0] : Fin 2 → Nat) = fun _ => 0 := funext fun a => by fin_cases a <;> rfl

/-- The printed index maps over the grid: at point t the rows' window and the output's window sit at block (t, 0),
    the weight's and the bias row's windows at block (0, 0). -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' block at point t is rows 10000·t … 10000·t + 9999 of the array the region reads. -/
theorem rows_block_apply (V : (c : Dev nD) → (b : Ref sig .tc) → Buf (Elt Ideal) ((c : Thread nD τ).loc b)) (c : Dev nD)
    (t : Fin cfg2.N) (p : Fin 10000) (k : Fin 128) (r : Fin 50000) (hr : r.val = t.val * 10000 + p.val) :
    (iblk2 (F := Ideal) V c 0 t : Vec Ideal S10000x128 .f32) (ix2 p k) = (V c main_v69 : S50000x128.Idx → EReal) (ix2 r k) := by
  obtain ⟨e0, e1, -, -, -, -, -, -⟩ := block_positions t
  unfold iblk2
  rw [View.read_apply]
  show (V c main_v69 : S50000x128.Idx → EReal) (((cfg2.win 0).blk t).view.emb (ix2 p k)) = _
  refine congrArg _ ?_
  funext a
  apply Fin.ext
  match a with
  | ⟨0, _⟩ => show win2_0.index t (0 : Fin 2) * 10000 + 1 * p.val = r.val; omega
  | ⟨1, _⟩ => show win2_0.index t (1 : Fin 2) * 128 + 1 * k.val = k.val; omega

/-- The weight's block at every point is the whole weight. -/
theorem weight_block_apply (V : (c : Dev nD) → (b : Ref sig .tc) → Buf (Elt Ideal) ((c : Thread nD τ).loc b)) (c : Dev nD)
    (t : Fin cfg2.N) (k : Fin 128) (q : Fin 100) :
    (iblk2 (F := Ideal) V c 1 t : Vec Ideal S128x100 .f32) (ix2 k q) = (V c main_arg6 : S128x100.Idx → EReal) (ix2 k q) := by
  obtain ⟨-, -, e2, e3, -, -, -, -⟩ := block_positions t
  unfold iblk2
  rw [View.read_apply]
  show (V c main_arg6 : S128x100.Idx → EReal) (((cfg2.win 1).blk t).view.emb (ix2 k q)) = _
  refine congrArg _ ?_
  funext a
  apply Fin.ext
  match a with
  | ⟨0, _⟩ => show win2_1.index t (0 : Fin 2) * 128 + 1 * k.val = k.val; omega
  | ⟨1, _⟩ => show win2_1.index t (1 : Fin 2) * 100 + 1 * q.val = q.val; omega

/-- The bias row's block at every point is the whole one-row array. -/
theorem bias_block_apply (V : (c : Dev nD) → (b : Ref sig .tc) → Buf (Elt Ideal) ((c : Thread nD τ).loc b)) (c : Dev nD)
    (t : Fin cfg2.N) (q : Fin 100) :
    (iblk2 (F := Ideal) V c 2 t : Vec Ideal S1x100 .f32) (ix2 (0 : Fin 1) q) = (V c main_v70 : S1x100.Idx → EReal) (ix2 (0 : Fin 1) q) := by
  obtain ⟨-, -, -, -, e4, e5, -, -⟩ := block_positions t
  unfold iblk2
  rw [View.read_apply]
  show (V c main_v70 : S1x100.Idx → EReal) (((cfg2.win 2).blk t).view.emb (ix2 (0 : Fin 1) q)) = _
  refine congrArg _ ?_
  funext a
  apply Fin.ext
  match a with
  | ⟨0, _⟩ => show win2_2.index t (0 : Fin 2) * 1 + 1 * 0 = 0; omega
  | ⟨1, _⟩ => show win2_2.index t (1 : Fin 2) * 100 + 1 * q.val = q.val; omega

/-- WHAT POINT t WRITES BACK: rows 10000·t … 10000·t + 9999 of the whole-array softmax. A row's softmax reads only that
    row's scores, and the block's row p is the array's row 10000·t + p. -/
theorem written_back_eq (V : (c : Dev nD) → (b : Ref sig .tc) → Buf (Elt Ideal) ((c : Thread nD τ).loc b)) (c : Dev nD)
    (ba : FVec Ideal S100 .f32) (hba : V c main_v70 = shapeCast S1x100 ba shapeCasts_S100_S1x100) (t : Fin cfg2.N) :
    (dat2 (F := Ideal) V c).flushed 3 t
      = ((cfg2.win 3).blk t).view.read (Elt Ideal)
          (Cert.Spec.softmax (F := Ideal) (Cert.Spec.logits (F := Ideal) (V c main_v69) (V c main_arg6) ba)) := by
  show (cfg2.win 3).cut (grid2.coords t) ((dat2 (F := Ideal) V c).after 3 t) = _
  rw [after2_3]
  unfold out2_3
  rw [View.canon_unit_zero zero_offsets]
  simp only [View.ld_unit_zero (S := S10000x128) zero_offsets, View.ld_unit_zero (S := S128x100) zero_offsets,
    View.ld_unit_zero (S := S1x100) zero_offsets]
  obtain ⟨-, -, -, -, -, -, e6, e7⟩ := block_positions t
  funext j
  obtain ⟨p, q, rfl⟩ : ∃ (p : Fin 10000) (q : Fin 100), j = ix2 p q := ⟨j 0, j 1, eq_ix2 j⟩
  have hp : p.val < 10000 := p.isLt
  have ht : t.val < 5 := by have := t.isLt; have hN : cfg2.N = 5 := N_2; omega
  show k2_pay1 (F := Ideal) (iblk2 (F := Ideal) V c 0 t) (iblk2 (F := Ideal) V c 1 t) (iblk2 (F := Ideal) V c 2 t) (ix2 p q)
    = Cert.Spec.softmax (F := Ideal) (Cert.Spec.logits (F := Ideal) (V c main_v69) (V c main_arg6) ba)
        (((cfg2.win 3).blk t).view.emb (ix2 p q))
  have hemb : ((cfg2.win 3).blk t).view.emb (ix2 p q) = (ix2 (⟨t.val * 10000 + p.val, by omega⟩ : Fin 50000) q : S50000x100.Idx) := by
    funext a
    apply Fin.ext
    match a with
    | ⟨0, _⟩ => show win2_3.index t (0 : Fin 2) * 10000 + 1 * p.val = t.val * 10000 + p.val; omega
    | ⟨1, _⟩ => show win2_3.index t (1 : Fin 2) * 100 + 1 * q.val = q.val; omega
  rw [hemb, pay_apply, softmax_apply]
  refine congrArg (fun s => rowSoftmax s q) (funext fun j => ?_)
  rw [logits_apply]
  unfold rowScores
  refine congrArg₂ (· + ·) (Finset.sum_congr rfl fun k _ => ?_) ?_
  · rw [rows_block_apply V c t p k ⟨t.val * 10000 + p.val, by omega⟩ rfl, weight_block_apply V c t k j]
  · refine (bias_block_apply V c t j).trans ?_
    rw [hba]
    exact shapeCast_a_1a_apply ba _ 0 j

/-- An index of the output array is in point t's block iff each coordinate is in the block's range on its axis. -/
theorem mem_block_iff (t : Fin cfg2.N) (i : S50000x100.Idx) :
    i ∈ ((cfg2.win 3).blk t).view.set ↔ ∀ a : Fin 2, win2_3.index t a * S10000x100.size a ≤ (i a).val
      ∧ (i a).val < win2_3.index t a * S10000x100.size a + S10000x100.size a := by
  show i ∈ ((View.whole main_v71).slice (win2_3.rect t)).set ↔ _
  rw [View.set_slice_whole, Rect.mem_set_unit]
  exact Iff.rfl

/-- THE COVER: row r of the output array is written back by point r / 10000. -/
theorem rows_covered (i : S50000x100.Idx) :
    ∃ t : Fin cfg2.N, (cfg2.win 3).flush t = true ∧ i ∈ ((cfg2.win 3).blk t).view.set := by
  have hi0 : (i 0).val < 50000 := (i 0).isLt
  have hi1 : (i 1).val < 100 := (i 1).isLt
  have hN : cfg2.N = 5 := N_2
  have ht : (i 0).val / 10000 < cfg2.N := by rw [hN]; omega
  obtain ⟨-, -, -, -, -, -, e6, e7⟩ := block_positions ⟨(i 0).val / 10000, ht⟩
  refine ⟨⟨(i 0).val / 10000, ht⟩, flush2_3 _, ?_⟩
  rw [mem_block_iff]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 100 ≤ (i 1).val
      ∧ (i 1).val < win2_3.index ⟨(i 0).val / 10000, ht⟩ (1 : Fin 2) * 100 + 100
    rw [e7]; omega

/-- Region 2's output array after its five points: the softmax of the scores of the arrays it reads, the bias row being the
    bias vector `ba` recast as one row. -/
theorem head2 (V : (c : Dev nD) → (b : Ref sig .tc) → Buf (Elt Ideal) ((c : Thread nD τ).loc b)) (c : Dev nD)
    (ba : FVec Ideal S100 .f32) (hba : V c main_v70 = shapeCast S1x100 ba shapeCasts_S100_S1x100) :
    (dat2 (F := Ideal) V c).arrAt 3 cfg2.N
      = Cert.Spec.softmax (F := Ideal) (Cert.Spec.logits (F := Ideal) (V c main_v69) (V c main_arg6) ba) :=
  (dat2 (F := Ideal) V c).arrAt_eq_of_cover 3
    (Cert.Spec.softmax (F := Ideal) (Cert.Spec.logits (F := Ideal) (V c main_v69) (V c main_arg6) ba))
    (fun t _ => written_back_eq V c ba hba t) rows_covered

end Cert.KernelIdeal.RegionHead

end
-- ==== Proof.KValue.lean ====
/-
  The idealized kernel's result array as ONE function of the argument arrays.  The contents of the TensorCore's buffers
  are followed through @main's nine segments (the generated `Gen.W0` … `Gen.W9`):
    * at the first region's entry the endpoint lists `src e`, `dst e` and the normalisation `norm` are in place and
      the arguments are as launched (the first three host stretches);
    * the first region leaves `lin x w1` (its five row blocks are the blocks of the whole product) and nothing else changes;
    * the next stretches leave `relu (agg (lin x w1) … b1)`;  the second region its product with `w2`;
    * the last stretch leaves `agg … b2` and the bias as one row;  the third region the softmax of the scores.
  Composed, the result is `Cert.Spec.full` of the eight argument arrays.
-/
import proofs.«109165_j8486855377200_1_alg».proof.Proof.Gen.KernelIdeal.Frame
import proofs.«109165_j8486855377200_1_alg».proof.Proof.Spec
import proofs.«109165_j8486855377200_1_alg».proof.Proof.KStretch
import proofs.«109165_j8486855377200_1_alg».proof.Proof.RegionLin
import proofs.«109165_j8486855377200_1_alg».proof.Proof.RegionHead
set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem at3_v3 : W3 m ρ c (Proc.devRef .tc main_v3) = (Cert.Spec.src (m ((c : Thread nD τ).loc main_arg1))) := KStretch.s0_v3 (W0 m ρ c)
theorem at3_v6 : W3 m ρ c (Proc.devRef .tc main_v6) = (Cert.Spec.dst (m ((c : Thread nD τ).loc main_arg1))) := KStretch.s0_v6 (W0 m ρ c)
theorem at3_v34 : W3 m ρ c (Proc.devRef .tc main_v34) = (Cert.Spec.norm (F := Ideal) (Cert.Spec.src (m ((c : Thread nD τ).loc main_arg1))) (Cert.Spec.dst (m ((c : Thread nD τ).loc main_arg1)))) := KStretch.s0_v34 (W0 m ρ c)
theorem at3_arg0 : W3 m ρ c (Proc.devRef .tc main_arg0) = (m ((c : Thread nD τ).loc main_arg0)) := KStretch.s0_keep_arg0 (W0 m ρ c)
theorem at3_arg2 : W3 m ρ c (Proc.devRef .tc main_arg2) = (m ((c : Thread nD τ).loc main_arg2)) := KStretch.s0_keep_arg2 (W0 m ρ c)
theorem at3_arg3 : W3 m ρ c (Proc.devRef .tc main_arg3) = (m ((c : Thread nD τ).loc main_arg3)) := KStretch.s0_keep_arg3 (W0 m ρ c)
theorem at3_arg4 : W3 m ρ c (Proc.devRef .tc main_arg4) = (m ((c : Thread nD τ).loc main_arg4)) := KStretch.s0_keep_arg4 (W0 m ρ c)
theorem at3_arg5 : W3 m ρ c (Proc.devRef .tc main_arg5) = (m ((c : Thread nD τ).loc main_arg5)) := KStretch.s0_keep_arg5 (W0 m ρ c)
theorem at3_arg6 : W3 m ρ c (Proc.devRef .tc main_arg6) = (m ((c : Thread nD τ).loc main_arg6)) := KStretch.s0_keep_arg6 (W0 m ρ c)
theorem at3_arg7 : W3 m ρ c (Proc.devRef .tc main_arg7) = (m ((c : Thread nD τ).loc main_arg7)) := KStretch.s0_keep_arg7 (W0 m ρ c)

/-! ## At the first region's exit -/

theorem at4_v35 : W4 m ρ c (Proc.devRef .tc main_v35) = (Cert.Spec.lin (F := Ideal) (m ((c : Thread nD τ).loc main_arg0)) (m ((c : Thread nD τ).loc main_arg2))) :=
  ((W4_arr m ρ c 2).trans (RegionLin.lin0 (V3 m ρ) c)).trans
    (congrArg₂ (Cert.Spec.lin (F := Ideal)) (at3_arg0 m ρ c) (at3_arg2 m ρ c))
theorem at4_v3 : W4 m ρ c (Proc.devRef .tc main_v3) = (Cert.Spec.src (m ((c : Thread nD τ).loc main_arg1))) := (W4_of_ne m ρ c main_v3 (by decide)).trans (at3_v3 m ρ c)
theorem at4_v6 : W4 m ρ c (Proc.devRef .tc main_v6) = (Cert.Spec.dst (m ((c : Thread nD τ).loc main_arg1))) := (W4_of_ne m ρ c main_v6 (by decide)).trans (at3_v6 m ρ c)
theorem at4_v34 : W4 m ρ c (Proc.devRef .tc main_v34) = (Cert.Spec.norm (F := Ideal) (Cert.Spec.src (m ((c : Thread nD τ).loc main_arg1))) (Cert.Spec.dst (m ((c : Thread nD τ).loc main_arg1)))) := (W4_of_ne m ρ c main_v34 (by decide)).trans (at3_v34 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)

/-! ## At the second region's entry -/

theorem at6_v52 : W6 m ρ c (Proc.devRef .tc main_v52) = (Cert.Spec.relu (F := Ideal) (Cert.Spec.agg (F := Ideal) (Cert.Spec.lin (F := Ideal) (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg3)))) := by
  refine (KStretch.s1_v52 (W4 m ρ c)).trans ?_
  rw [at4_v35, at4_v3, at4_v6, at4_v34, at4_arg3]
theorem at6_v3 : W6 m ρ c (Proc.devRef .tc main_v3) = (Cert.Spec.src (m ((c : Thread nD τ).loc main_arg1))) := (KStretch.s1_keep_v3 (W4 m ρ c)).trans (at4_v3 m ρ c)
theorem at6_v6 : W6 m ρ c (Proc.devRef .tc main_v6) = (Cert.Spec.dst (m ((c : Thread nD τ).loc main_arg1))) := (KStretch.s1_keep_v6 (W4 m ρ c)).trans (at4_v6 m ρ c)
theorem at6_v34 : W6 m ρ c (Proc.devRef .tc main_v34) = (Cert.Spec.norm (F := Ideal) (Cert.Spec.src (m ((c : Thread nD τ).loc main_arg1))) (Cert.Spec.dst (m ((c : Thread nD τ).loc main_arg1)))) := (KStretch.s1_keep_v34 (W4 m ρ c)).trans (at4_v34 m ρ c)
theorem at6_arg4 : W6 m ρ c (Proc.devRef .tc main_arg4) = (m ((c : Thread nD τ).loc main_arg4)) := (KStretch.s1_keep_arg4 (W4 m ρ c)).trans (at4_arg4 m ρ c)
theorem at6_arg5 : W6 m ρ c (Proc.devRef .tc main_arg5) = (m ((c : Thread nD τ).loc main_arg5)) := (KStretch.s1_keep_arg5 (W4 m ρ c)).trans (at4_arg5 m ρ c)
theorem at6_arg6 : W6 m ρ c (Proc.devRef .tc main_arg6) = (m ((c : Thread nD τ).loc main_arg6)) := (KStretch.s1_keep_arg6 (W4 m ρ c)).trans (at4_arg6 m ρ c)
theorem at6_arg7 : W6 m ρ c (Proc.devRef .tc main_arg7) = (m ((c : Thread nD τ).loc main_arg7)) := (KStretch.s1_keep_arg7 (W4 m ρ c)).trans (at4_arg7 m ρ c)

/-! ## At the second region's exit -/

theorem at7_v53 : W7 m ρ c (Proc.devRef .tc main_v53) = (Cert.Spec.lin (F := Ideal) (Cert.Spec.relu (F := Ideal) (Cert.Spec.agg (F := Ideal) (Cert.Spec.lin (F := Ideal) (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg3)))) (m ((c : Thread nD τ).loc main_arg4))) :=
  ((W7_arr m ρ c 2).trans (RegionLin.lin1 (V6 m ρ) c)).trans
    (congrArg₂ (Cert.Spec.lin (F := Ideal)) (at6_v52 m ρ c) (at6_arg4 m ρ c))
theorem at7_v3 : W7 m ρ c (Proc.devRef .tc main_v3) = (Cert.Spec.src (m ((c : Thread nD τ).loc main_arg1))) := (W7_of_ne m ρ c main_v3 (by decide)).trans (at6_v3 m ρ c)
theorem at7_v6 : W7 m ρ c (Proc.devRef .tc main_v6) = (Cert.Spec.dst (m ((c : Thread nD τ).loc main_arg1))) := (W7_of_ne m ρ c main_v6 (by decide)).trans (at6_v6 m ρ c)
theorem at7_v34 : W7 m ρ c (Proc.devRef .tc main_v34) = (Cert.Spec.norm (F := Ideal) (Cert.Spec.src (m ((c : Thread nD τ).loc main_arg1))) (Cert.Spec.dst (m ((c : Thread nD τ).loc main_arg1)))) := (W7_of_ne m ρ c main_v34 (by decide)).trans (at6_v34 m ρ c)
theorem at7_arg5 : W7 m ρ c (Proc.devRef .tc main_arg5) = (m ((c : Thread nD τ).loc main_arg5)) := (W7_of_ne m ρ c main_arg5 (by decide)).trans (at6_arg5 m ρ c)
theorem at7_arg6 : W7 m ρ c (Proc.devRef .tc main_arg6) = (m ((c : Thread nD τ).loc main_arg6)) := (W7_of_ne m ρ c main_arg6 (by decide)).trans (at6_arg6 m ρ c)
theorem at7_arg7 : W7 m ρ c (Proc.devRef .tc main_arg7) = (m ((c : Thread nD τ).loc main_arg7)) := (W7_of_ne m ρ c main_arg7 (by decide)).trans (at6_arg7 m ρ c)

/-! ## At the third region's entry -/

theorem at8_v69 : W8 m ρ c (Proc.devRef .tc main_v69) = (Cert.Spec.agg (F := Ideal) (Cert.Spec.lin (F := Ideal) (Cert.Spec.relu (F := Ideal) (Cert.Spec.agg (F := Ideal) (Cert.Spec.lin (F := Ideal) (m ((c : Thread nD τ).loc main_arg0)) (m ((c : Thread nD τ).loc main_arg2))) (Cert.Spec.src (m ((c : Thread nD τ).loc main_arg1))) (Cert.Spec.dst (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg3)))) (m ((c : Thread nD τ).loc main_arg4))) (Cert.Spec.src (m ((c : Thread nD τ).loc main_arg1))) (Cert.Spec.dst (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg5))) := by
  refine (KStretch.s2_v69 (W7 m ρ c)).trans ?_
  rw [at7_v53, at7_v3, at7_v6, at7_v34, at7_arg5]
theorem at8_v70 : W8 m ρ c (Proc.devRef .tc main_v70) = shapeCast S1x100 (m ((c : Thread nD τ).loc main_arg7)) shapeCasts_S100_S1x100 := by
  refine (KStretch.s2_v70 (W7 m ρ c)).trans ?_
  rw [at7_arg7]
theorem at8_arg6 : W8 m ρ c (Proc.devRef .tc main_arg6) = (m ((c : Thread nD τ).loc main_arg6)) := (KStretch.s2_keep_arg6 (W7 m ρ c)).trans (at7_arg6 m ρ c)

/-! ## The result -/

/-- The result array after the run is the whole network of the argument arrays. -/
theorem value : W9 m ρ c (Proc.devRef .tc main_v71) = Cert.Spec.full (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W9_arr m ρ c 3).trans (RegionHead.head2 (V8 m ρ) c (m ((c : Thread nD τ).loc main_arg7)) (at8_v70 m ρ c))).trans
    (congrArg (Cert.Spec.softmax (F := Ideal))
      (congrArg₂ (fun h wa => Cert.Spec.logits (F := Ideal) h wa (m ((c : Thread nD τ).loc main_arg7))) (at8_v69 m ρ c) (at8_arg6 m ρ c)))

end Cert.KernelIdeal.KValue

end
-- ==== Proof.RefStretch.lean ====
/-
  The reference's 108 host operations cut into six consecutive stretches, and what each stretch computes as a function of
  ANY contents `V` of the buffers before it: the two endpoint lists; the inverse square roots of the in-degrees; the
  per-pair normalisation; the first layer (product, aggregation, positive part); the second layer (product,
  aggregation); the head (scores and their softmax). Each stretch reads a few buffers written before it and the
  arguments; beside its value we record the buffers it leaves alone, which later stretches still read. The run of the
  whole line is then the stretches' values substituted into one another (`after_append`).
-/
import proofs.«109165_j8486855377200_1_alg».proof.Proof.RefOps
import proofs.«109165_j8486855377200_1_alg».proof.Proof.Spec

noncomputable section

namespace Cert.ReferenceIdeal.RefValue

open Idealize.ShloMosaic Idealize.ShloMosaic.TcCoe Idealize.SL.Sem Idealize.ShloMosaic.StableHlo Cert.ReferenceIdeal Cert.ReferenceIdeal.Gen

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The six stretches -/

/-- Operations 1–7: the self-loop indices, the two rows of the edge array, and the two endpoint lists. -/
def opsEnds : List (HloOp τ sig (Elt F)) :=
  [ nullary main_v0 (iotaInDim S50000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- Operations 8–28: the in-degrees (ones added along the wrapped second endpoints) and their inverse square roots, `0` where the degree is not positive. -/
def opsDinv : List (HloOp τ sig (Elt F)) :=
  [ nullary main_cst (constant S_ .f32 0x00000000#32),
    unary main_cst main_v7 (broadcastInDim S50000 ![] bcast_S_S50000 : (⟨S_, .f32⟩ : BufTy).Contents (Elt F) → (⟨S50000, .f32⟩ : BufTy).Contents (Elt F)),
    nullary main_c (constantI S_ 32 0#32),
    unary main_c main_v8 (broadcastInDim S1650000 ![] bcast_S_S1650000 : (⟨S_, .i32⟩ : BufTy).Contents (Elt F) → (⟨S1650000, .i32⟩ : BufTy).Contents (Elt F)),
    binary main_v6 main_v8 main_v9 (cmpi .slt : (⟨S1650000, .i32⟩ : BufTy).Contents (Elt F) → (⟨S1650000, .i32⟩ : BufTy).Contents (Elt F) → (⟨S1650000, .i1⟩ : BufTy).Contents (Elt F)),
    nullary main_c_0 (constantI S_ 32 50000#32),
    unary main_c_0 main_v10 (broadcastInDim S1650000 ![] bcast_S_S1650000 : (⟨S_, .i32⟩ : BufTy).Contents (Elt F) → (⟨S1650000, .i32⟩ : BufTy).Contents (Elt F)),
    binary main_v6 main_v10 main_v11 (addi : (⟨S1650000, .i32⟩ : BufTy).Contents (Elt F) → (⟨S1650000, .i32⟩ : BufTy).Contents (Elt F) → (⟨S1650000, .i32⟩ : BufTy).Contents (Elt F)),
    ternary main_v9 main_v11 main_v6 main_v12 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v12 main_v13 (broadcastInDim S1650000x1 ![0] bcast_S1650000_S1650000x1_0 : (⟨S1650000, .i32⟩ : BufTy).Contents (Elt F) → (⟨S1650000x1, .i32⟩ : BufTy).Contents (Elt F)),
    nullary main_cst_1 (constant S_ .f32 0x3F800000#32),
    unary main_cst_1 main_v14 (broadcastInDim S1650000 ![] bcast_S_S1650000 : (⟨S_, .f32⟩ : BufTy).Contents (Elt F) → (⟨S1650000, .f32⟩ : BufTy).Contents (Elt F)),
    ternary main_v7 main_v13 main_v14 main_v15 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    nullary main_cst_2 (constant S_ .f32 0x00000000#32),
    unary main_cst_2 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select ]

/-- Operations 29–47: the inverse square roots gathered at both endpoints of every pair, and their product. -/
def opsNorm : List (HloOp τ sig (Elt F)) :=
  [ nullary main_c_4 (constantI S_ 32 0#32),
    unary main_c_4 main_v20 (broadcastInDim S1650000 ![] bcast_S_S1650000 : (⟨S_, .i32⟩ : BufTy).Contents (Elt F) → (⟨S1650000, .i32⟩ : BufTy).Contents (Elt F)),
    binary main_v3 main_v20 main_v21 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v22 (broadcastInDim S1650000 ![] bcast_S_S1650000 : (⟨S_, .i32⟩ : BufTy).Contents (Elt F) → (⟨S1650000, .i32⟩ : BufTy).Contents (Elt F)),
    binary main_v3 main_v22 main_v23 (addi : (⟨S1650000, .i32⟩ : BufTy).Contents (Elt F) → (⟨S1650000, .i32⟩ : BufTy).Contents (Elt F) → (⟨S1650000, .i32⟩ : BufTy).Contents (Elt F)),
    ternary main_v21 main_v23 main_v3 main_v24 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v24 main_v25 (broadcastInDim S1650000x1 ![0] bcast_S1650000_S1650000x1_0 : (⟨S1650000, .i32⟩ : BufTy).Contents (Elt F) → (⟨S1650000x1, .i32⟩ : BufTy).Contents (Elt F)),
    binary main_v19 main_v25 main_v26 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_6 (constantI S_ 32 0#32),
    unary main_c_6 main_v27 (broadcastInDim S1650000 ![] bcast_S_S1650000 : (⟨S_, .i32⟩ : BufTy).Contents (Elt F) → (⟨S1650000, .i32⟩ : BufTy).Contents (Elt F)),
    binary main_v6 main_v27 main_v28 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v29 (broadcastInDim S1650000 ![] bcast_S_S1650000 : (⟨S_, .i32⟩ : BufTy).Contents (Elt F) → (⟨S1650000, .i32⟩ : BufTy).Contents (Elt F)),
    binary main_v6 main_v29 main_v30 (addi : (⟨S1650000, .i32⟩ : BufTy).Contents (Elt F) → (⟨S1650000, .i32⟩ : BufTy).Contents (Elt F) → (⟨S1650000, .i32⟩ : BufTy).Contents (Elt F)),
    ternary main_v28 main_v30 main_v6 main_v31 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v31 main_v32 (broadcastInDim S1650000x1 ![0] bcast_S1650000_S1650000x1_0 : (⟨S1650000, .i32⟩ : BufTy).Contents (Elt F) → (⟨S1650000x1, .i32⟩ : BufTy).Contents (Elt F)),
    binary main_v19 main_v32 main_v33 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v26 main_v33 main_v34 (mulf : (⟨S1650000, .f32⟩ : BufTy).Contents (Elt F) → (⟨S1650000, .f32⟩ : BufTy).Contents (Elt F) → (⟨S1650000, .f32⟩ : BufTy).Contents (Elt F)) ]

/-- Operations 48–70: the first layer, a matrix product, the normalised aggregation with its bias, and the positive part. -/
def opsLayer1 : List (HloOp τ sig (Elt F)) :=
  [ binary main_arg0 main_arg2 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_8 (constantI S_ 32 0#32),
    unary main_c_8 main_v36 (broadcastInDim S1650000 ![] bcast_S_S1650000 : (⟨S_, .i32⟩ : BufTy).Contents (Elt F) → (⟨S1650000, .i32⟩ : BufTy).Contents (Elt F)),
    binary main_v3 main_v36 main_v37 (cmpi .slt : (⟨S1650000, .i32⟩ : BufTy).Contents (Elt F) → (⟨S1650000, .i32⟩ : BufTy).Contents (Elt F) → (⟨S1650000, .i1⟩ : BufTy).Contents (Elt F)),
    nullary main_c_9 (constantI S_ 32 50000#32),
    unary main_c_9 main_v38 (broadcastInDim S1650000 ![] bcast_S_S1650000 : (⟨S_, .i32⟩ : BufTy).Contents (Elt F) → (⟨S1650000, .i32⟩ : BufTy).Contents (Elt F)),
    binary main_v3 main_v38 main_v39 (addi : (⟨S1650000, .i32⟩ : BufTy).Contents (Elt F) → (⟨S1650000, .i32⟩ : BufTy).Contents (Elt F) → (⟨S1650000, .i32⟩ : BufTy).Contents (Elt F)),
    ternary main_v37 main_v39 main_v3 main_v40 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v40 main_v41 (broadcastInDim S1650000x1 ![0] bcast_S1650000_S1650000x1_0 : (⟨S1650000, .i32⟩ : BufTy).Contents (Elt F) → (⟨S1650000x1, .i32⟩ : BufTy).Contents (Elt F)),
    binary main_v35 main_v41 main_v42 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v34 main_v43 (broadcastInDim S1650000x1 ![0] bcast_S1650000_S1650000x1_0 : (⟨S1650000, .f32⟩ : BufTy).Contents (Elt F) → (⟨S1650000x1, .f32⟩ : BufTy).Contents (Elt F)),
    unary main_v43 main_v44 (broadcastInDim S1650000x128 ![0, 1] bcast_S1650000x1_S1650000x128_0_1 : (⟨S1650000x1, .f32⟩ : BufTy).Contents (Elt F) → (⟨S1650000x128, .f32⟩ : BufTy).Contents (Elt F)),
    binary main_v42 main_v44 main_v45 (mulf : (⟨S1650000x128, .f32⟩ : BufTy).Contents (Elt F) → (⟨S1650000x128, .f32⟩ : BufTy).Contents (Elt F) → (⟨S1650000x128, .f32⟩ : BufTy).Contents (Elt F)),
    nullary main_cst_10 (constant S_ .f32 0x00000000#32),
    unary main_cst_10 main_v46 (broadcastInDim S50000x128 ![] bcast_S_S50000x128 : (⟨S_, .f32⟩ : BufTy).Contents (Elt F) → (⟨S50000x128, .f32⟩ : BufTy).Contents (Elt F)),
    unary main_v6 main_v47 (broadcastInDim S1650000x1 ![0] bcast_S1650000_S1650000x1_0 : (⟨S1650000, .i32⟩ : BufTy).Contents (Elt F) → (⟨S1650000x1, .i32⟩ : BufTy).Contents (Elt F)),
    ternary main_v46 main_v47 main_v45 main_v48 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v51) (TRef.of (T := ⟨S50000x128, .f32⟩) main_call1_v0) (TRef.of (T := ⟨S50000x128, .f32⟩) main_v52) maximumf ]

/-- Operations 71–90: the second layer, a matrix product and the normalised aggregation with its bias. -/
def opsLayer2 : List (HloOp τ sig (Elt F)) :=
  [ binary main_v52 main_arg4 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_11 (constantI S_ 32 0#32),
    unary main_c_11 main_v54 (broadcastInDim S1650000 ![] bcast_S_S1650000 : (⟨S_, .i32⟩ : BufTy).Contents (Elt F) → (⟨S1650000, .i32⟩ : BufTy).Contents (Elt F)),
    binary main_v3 main_v54 main_v55 (cmpi .slt : (⟨S1650000, .i32⟩ : BufTy).Contents (Elt F) → (⟨S1650000, .i32⟩ : BufTy).Contents (Elt F) → (⟨S1650000, .i1⟩ : BufTy).Contents (Elt F)),
    nullary main_c_12 (constantI S_ 32 50000#32),
    unary main_c_12 main_v56 (broadcastInDim S1650000 ![] bcast_S_S1650000 : (⟨S_, .i32⟩ : BufTy).Contents (Elt F) → (⟨S1650000, .i32⟩ : BufTy).Contents (Elt F)),
    binary main_v3 main_v56 main_v57 (addi : (⟨S1650000, .i32⟩ : BufTy).Contents (Elt F) → (⟨S1650000, .i32⟩ : BufTy).Contents (Elt F) → (⟨S1650000, .i32⟩ : BufTy).Contents (Elt F)),
    ternary main_v55 main_v57 main_v3 main_v58 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v58 main_v59 (broadcastInDim S1650000x1 ![0] bcast_S1650000_S1650000x1_0 : (⟨S1650000, .i32⟩ : BufTy).Contents (Elt F) → (⟨S1650000x1, .i32⟩ : BufTy).Contents (Elt F)),
    binary main_v53 main_v59 main_v60 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v34 main_v61 (broadcastInDim S1650000x1 ![0] bcast_S1650000_S1650000x1_0 : (⟨S1650000, .f32⟩ : BufTy).Contents (Elt F) → (⟨S1650000x1, .f32⟩ : BufTy).Contents (Elt F)),
    unary main_v61 main_v62 (broadcastInDim S1650000x128 ![0, 1] bcast_S1650000x1_S1650000x128_0_1 : (⟨S1650000x1, .f32⟩ : BufTy).Contents (Elt F) → (⟨S1650000x128, .f32⟩ : BufTy).Contents (Elt F)),
    binary main_v60 main_v62 main_v63 (mulf : (⟨S1650000x128, .f32⟩ : BufTy).Contents (Elt F) → (⟨S1650000x128, .f32⟩ : BufTy).Contents (Elt F) → (⟨S1650000x128, .f32⟩ : BufTy).Contents (Elt F)),
    nullary main_cst_13 (constant S_ .f32 0x00000000#32),
    unary main_cst_13 main_v64 (broadcastInDim S50000x128 ![] bcast_S_S50000x128 : (⟨S_, .f32⟩ : BufTy).Contents (Elt F) → (⟨S50000x128, .f32⟩ : BufTy).Contents (Elt F)),
    unary main_v6 main_v65 (broadcastInDim S1650000x1 ![0] bcast_S1650000_S1650000x1_0 : (⟨S1650000, .i32⟩ : BufTy).Contents (Elt F) → (⟨S1650000x1, .i32⟩ : BufTy).Contents (Elt F)),
    ternary main_v64 main_v65 main_v63 main_v66 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- Operations 91–108: the head's scores and the softmax of every row. -/
def opsHead : List (HloOp τ sig (Elt F)) :=
  [ binary main_v69 main_arg6 main_v70 ((fun l r => Host.dotGeneral dot_S50000x128_S128x100_S50000x100_1_0_0_1_n_n none l r) : (⟨S50000x128, .f32⟩ : BufTy).Contents (Elt F) → (⟨S128x100, .f32⟩ : BufTy).Contents (Elt F) → (⟨S50000x100, .f32⟩ : BufTy).Contents (Elt F)),
    unary main_arg7 main_v71 (broadcastInDim S1x100 ![1] bcast_S100_S1x100_1 : (⟨S100, .f32⟩ : BufTy).Contents (Elt F) → (⟨S1x100, .f32⟩ : BufTy).Contents (Elt F)),
    unary main_v71 main_v72 (broadcastInDim S50000x100 ![0, 1] bcast_S1x100_S50000x100_0_1 : (⟨S1x100, .f32⟩ : BufTy).Contents (Elt F) → (⟨S50000x100, .f32⟩ : BufTy).Contents (Elt F)),
    binary main_v70 main_v72 main_v73 (addf : (⟨S50000x100, .f32⟩ : BufTy).Contents (Elt F) → (⟨S50000x100, .f32⟩ : BufTy).Contents (Elt F) → (⟨S50000x100, .f32⟩ : BufTy).Contents (Elt F)),
    nullary main_cst_14 (constant S_ .f32 0xFF800000#32),
    binary main_v73 main_cst_14 main_v74 ((fun x v => Host.reduce FloatOps.maximumf x v reducesTo_S50000x100_S50000_d1 h_S_) : (⟨S50000x100, .f32⟩ : BufTy).Contents (Elt F) → (⟨S_, .f32⟩ : BufTy).Contents (Elt F) → (⟨S50000, .f32⟩ : BufTy).Contents (Elt F)),
    nullary main_cst_15 (constant S_ .f32 0xFF800000#32),
    unary main_cst_15 main_v75 (broadcastInDim S50000 ![] bcast_S_S50000 : (⟨S_, .f32⟩ : BufTy).Contents (Elt F) → (⟨S50000, .f32⟩ : BufTy).Contents (Elt F)),
    binary main_v75 main_v74 main_v76 (maximumf : (⟨S50000, .f32⟩ : BufTy).Contents (Elt F) → (⟨S50000, .f32⟩ : BufTy).Contents (Elt F) → (⟨S50000, .f32⟩ : BufTy).Contents (Elt F)),
    unary main_v76 main_v77 (broadcastInDim S50000x1 ![0] bcast_S50000_S50000x1_0 : (⟨S50000, .f32⟩ : BufTy).Contents (Elt F) → (⟨S50000x1, .f32⟩ : BufTy).Contents (Elt F)),
    unary main_v77 main_v78 (broadcastInDim S50000x100 ![0, 1] bcast_S50000x1_S50000x100_0_1 : (⟨S50000x1, .f32⟩ : BufTy).Contents (Elt F) → (⟨S50000x100, .f32⟩ : BufTy).Contents (Elt F)),
    binary main_v73 main_v78 main_v79 (subf : (⟨S50000x100, .f32⟩ : BufTy).Contents (Elt F) → (⟨S50000x100, .f32⟩ : BufTy).Contents (Elt F) → (⟨S50000x100, .f32⟩ : BufTy).Contents (Elt F)),
    unary main_v79 main_v80 (Host.exp : (⟨S50000x100, .f32⟩ : BufTy).Contents (Elt F) → (⟨S50000x100, .f32⟩ : BufTy).Contents (Elt F)),
    nullary main_cst_16 (constant S_ .f32 0x00000000#32),
    binary main_v80 main_cst_16 main_v81 ((fun x v => Host.reduceAdd x v reducesTo_S50000x100_S50000_d1 h_S_) : (⟨S50000x100, .f32⟩ : BufTy).Contents (Elt F) → (⟨S_, .f32⟩ : BufTy).Contents (Elt F) → (⟨S50000, .f32⟩ : BufTy).Contents (Elt F)),
    unary main_v81 main_v82 (broadcastInDim S50000x1 ![0] bcast_S50000_S50000x1_0 : (⟨S50000, .f32⟩ : BufTy).Contents (Elt F) → (⟨S50000x1, .f32⟩ : BufTy).Contents (Elt F)),
    unary main_v82 main_v83 (broadcastInDim S50000x100 ![0, 1] bcast_S50000x1_S50000x100_0_1 : (⟨S50000x1, .f32⟩ : BufTy).Contents (Elt F) → (⟨S50000x100, .f32⟩ : BufTy).Contents (Elt F)),
    binary main_v80 main_v83 main_v84 (Host.divf : (⟨S50000x100, .f32⟩ : BufTy).Contents (Elt F) → (⟨S50000x100, .f32⟩ : BufTy).Contents (Elt F) → (⟨S50000x100, .f32⟩ : BufTy).Contents (Elt F)) ]

set_option maxRecDepth 8192 in
/-- The whole line is the six stretches in order. -/
theorem ops_eq : (ValueP.ops : List (HloOp τ sig (Elt F)))
    = opsEnds ++ (opsDinv ++ (opsNorm ++ (opsLayer1 ++ (opsLayer2 ++ opsHead)))) := rfl

/-! ## The endpoint lists -/

/-- After the first stretch the first endpoint list holds `src` of the edge array. -/
theorem ends_src (V : Valuation τ sig (Elt F)) :
    after opsEnds V (Proc.devRef .tc main_v3) = Cert.Spec.src (V (Proc.devRef .tc main_arg1)) := by
  unfold opsEnds; after_results <;> rfl

/-- After the first stretch the second endpoint list holds `dst` of the edge array. -/
theorem ends_dst (V : Valuation τ sig (Elt F)) :
    after opsEnds V (Proc.devRef .tc main_v6) = Cert.Spec.dst (V (Proc.devRef .tc main_arg1)) := by
  unfold opsEnds; after_results <;> rfl

/-- The first stretch leaves the arguments alone. -/
theorem ends_frame (V : Valuation τ sig (Elt F)) {r : Ref sig .tc}
    (hr : r ∈ ([main_arg0, main_arg1, main_arg2, main_arg3, main_arg4, main_arg5, main_arg6, main_arg7] : List (Ref sig .tc))) :
    after opsEnds V (no_index (Proc.devRef .tc r)) = V (Proc.devRef .tc r) := by
  simp only [List.mem_cons, List.not_mem_nil, or_false] at hr
  rcases hr with rfl | rfl | rfl | rfl | rfl | rfl | rfl | rfl <;> (unfold opsEnds; after_results_simp)

/-! ## The inverse square roots of the degrees -/

/-- The second stretch computes `dinv` of the second endpoint list. -/
theorem dinv_val (V : Valuation τ sig (Elt F)) :
    after opsDinv V (Proc.devRef .tc main_v19) = Cert.Spec.dinv (F := F) (V (Proc.devRef .tc main_v6)) := by
  unfold opsDinv; after_results_simp <;> rfl

/-- The second stretch leaves the endpoint lists and the arguments alone. -/
theorem dinv_frame (V : Valuation τ sig (Elt F)) {r : Ref sig .tc}
    (hr : r ∈ ([main_v3, main_v6, main_arg0, main_arg1, main_arg2, main_arg3, main_arg4, main_arg5, main_arg6, main_arg7] : List (Ref sig .tc))) :
    after opsDinv V (no_index (Proc.devRef .tc r)) = V (Proc.devRef .tc r) := by
  simp only [List.mem_cons, List.not_mem_nil, or_false] at hr
  rcases hr with rfl | rfl | rfl | rfl | rfl | rfl | rfl | rfl | rfl | rfl <;> (unfold opsDinv; after_results_simp)

/-! ## The normalisation -/

/-- The third stretch multiplies, pair by pair, the inverse square roots found at the two (wrapped) endpoints. -/
theorem norm_val (V : Valuation τ sig (Elt F)) :
    after opsNorm V (Proc.devRef .tc main_v34)
      = mulf (F := F) (Host.gather gather_S50000_S1650000x1_S1650000_n_0_n_n_0_1_1 ((V (Proc.devRef .tc main_v19)) : FVec F S50000 .f32) (Cert.Spec.wrap (V (Proc.devRef .tc main_v3))))
          (Host.gather gather_S50000_S1650000x1_S1650000_n_0_n_n_0_1_1 ((V (Proc.devRef .tc main_v19)) : FVec F S50000 .f32) (Cert.Spec.wrap (V (Proc.devRef .tc main_v6)))) := by
  unfold opsNorm; after_results_simp <;> rfl

/-- The third stretch leaves the endpoint lists and the arguments alone. -/
theorem norm_frame (V : Valuation τ sig (Elt F)) {r : Ref sig .tc}
    (hr : r ∈ ([main_v3, main_v6, main_arg0, main_arg1, main_arg2, main_arg3, main_arg4, main_arg5, main_arg6, main_arg7] : List (Ref sig .tc))) :
    after opsNorm V (no_index (Proc.devRef .tc r)) = V (Proc.devRef .tc r) := by
  simp only [List.mem_cons, List.not_mem_nil, or_false] at hr
  rcases hr with rfl | rfl | rfl | rfl | rfl | rfl | rfl | rfl | rfl | rfl <;> (unfold opsNorm; after_results_simp)

/-! ## The two layers -/

/-- The fourth stretch: the positive part of the aggregation of `x · w1`. -/
theorem layer1_val (V : Valuation τ sig (Elt F)) :
    after opsLayer1 V (Proc.devRef .tc main_v52)
      = Cert.Spec.relu (F := F) (Cert.Spec.agg (Cert.Spec.lin (V (Proc.devRef .tc main_arg0)) (V (Proc.devRef .tc main_arg2)))
          (V (Proc.devRef .tc main_v3)) (V (Proc.devRef .tc main_v6)) (V (Proc.devRef .tc main_v34)) (V (Proc.devRef .tc main_arg3))) := by
  unfold opsLayer1; after_results_simp <;> rfl

/-- The fourth stretch leaves the endpoint lists, the normalisation and the arguments alone. -/
theorem layer1_frame (V : Valuation τ sig (Elt F)) {r : Ref sig .tc}
    (hr : r ∈ ([main_v3, main_v6, main_v34, main_arg0, main_arg1, main_arg2, main_arg3, main_arg4, main_arg5, main_arg6, main_arg7] : List (Ref sig .tc))) :
    after opsLayer1 V (no_index (Proc.devRef .tc r)) = V (Proc.devRef .tc r) := by
  simp only [List.mem_cons, List.not_mem_nil, or_false] at hr
  rcases hr with rfl | rfl | rfl | rfl | rfl | rfl | rfl | rfl | rfl | rfl | rfl <;> (unfold opsLayer1; after_results_simp)

/-- The fifth stretch: the aggregation of the first layer's output times `w2`. -/
theorem layer2_val (V : Valuation τ sig (Elt F)) :
    after opsLayer2 V (Proc.devRef .tc main_v69)
      = Cert.Spec.agg (F := F) (Cert.Spec.lin (V (Proc.devRef .tc main_v52)) (V (Proc.devRef .tc main_arg4)))
          (V (Proc.devRef .tc main_v3)) (V (Proc.devRef .tc main_v6)) (V (Proc.devRef .tc main_v34)) (V (Proc.devRef .tc main_arg5)) := by
  unfold opsLayer2; after_results_simp <;> rfl

/-- The fifth stretch leaves the arguments alone. -/
theorem layer2_frame (V : Valuation τ sig (Elt F)) {r : Ref sig .tc}
    (hr : r ∈ ([main_arg0, main_arg1, main_arg2, main_arg3, main_arg4, main_arg5, main_arg6, main_arg7] : List (Ref sig .tc))) :
    after opsLayer2 V (no_index (Proc.devRef .tc r)) = V (Proc.devRef .tc r) := by
  simp only [List.mem_cons, List.not_mem_nil, or_false] at hr
  rcases hr with rfl | rfl | rfl | rfl | rfl | rfl | rfl | rfl <;> (unfold opsLayer2; after_results_simp)

/-! ## The head -/

/-- The last stretch: the softmax of the scores. -/
theorem head_val (V : Valuation τ sig (Elt F)) :
    after opsHead V (Proc.devRef .tc main_v84)
      = Cert.Spec.softmax (F := F) (Cert.Spec.logits (V (Proc.devRef .tc main_v69)) (V (Proc.devRef .tc main_arg6)) (V (Proc.devRef .tc main_arg7))) := by
  unfold opsHead; after_results_simp <;> rfl

/-- The last stretch leaves the arguments alone. -/
theorem head_frame (V : Valuation τ sig (Elt F)) {r : Ref sig .tc}
    (hr : r ∈ ([main_arg0, main_arg1, main_arg2, main_arg3, main_arg4, main_arg5, main_arg6, main_arg7] : List (Ref sig .tc))) :
    after opsHead V (no_index (Proc.devRef .tc r)) = V (Proc.devRef .tc r) := by
  simp only [List.mem_cons, List.not_mem_nil, or_false] at hr
  rcases hr with rfl | rfl | rfl | rfl | rfl | rfl | rfl | rfl <;> (unfold opsHead; after_results_simp)

end Cert.ReferenceIdeal.RefValue

end
-- ==== Proof.RefRun.lean ====
/-
  The reference's run at the exact instance. The whole line of host operations is six stretches run one after the
  other; each stretch's value is a function of the buffers it reads, and those are either arguments, which no stretch
  writes, or the value of an earlier stretch. Substituting the values into one another gives the network `Cert.Spec.full`
  of the argument arrays at the result buffer.
-/
import proofs.«109165_j8486855377200_1_alg».proof.Proof.RefStretch

noncomputable section

namespace Cert.ReferenceIdeal.RefValue

open Idealize.ShloMosaic Idealize.ShloMosaic.TcCoe Idealize.SL.Sem Idealize.ShloMosaic.StableHlo Cert.ReferenceIdeal Cert.ReferenceIdeal.Gen

set_option maxRecDepth 8192 in
/-- The result buffer after the whole line, from any contents `V`: the network of the arguments' contents. The six
    stretches are read back from the last to the first; a buffer a stretch does not write is read through it. -/
theorem out_eq {F : FTy → Type} [FloatOps F] (V : Valuation τ sig (Elt F)) :
    after ValueP.ops V (Proc.devRef .tc main_v84)
      = Cert.Spec.full (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq, after_append, after_append, after_append, after_append, after_append]
  -- the head reads the second layer's output and two arguments
  rw [head_val]
  -- the second layer reads the first layer's output, the endpoint lists, the normalisation and arguments
  rw [layer2_val, layer2_frame _ (r := main_arg6) (by decide),
    layer2_frame _ (r := main_arg7) (by decide)]
  -- the first layer reads the endpoint lists, the normalisation and arguments
  rw [layer1_val, layer1_frame _ (r := main_v3) (by decide),
    layer1_frame _ (r := main_v6) (by decide),
    layer1_frame _ (r := main_v34) (by decide),
    layer1_frame _ (r := main_arg4) (by decide),
    layer1_frame _ (r := main_arg5) (by decide),
    layer1_frame _ (r := main_arg6) (by decide),
    layer1_frame _ (r := main_arg7) (by decide)]
  -- the normalisation reads the inverse square roots and the endpoint lists
  rw [norm_val, norm_frame _ (r := main_v3) (by decide),
    norm_frame _ (r := main_v6) (by decide),
    norm_frame _ (r := main_arg0) (by decide),
    norm_frame _ (r := main_arg2) (by decide),
    norm_frame _ (r := main_arg3) (by decide),
    norm_frame _ (r := main_arg4) (by decide),
    norm_frame _ (r := main_arg5) (by decide),
    norm_frame _ (r := main_arg6) (by decide),
    norm_frame _ (r := main_arg7) (by decide)]
  -- the inverse square roots read the second endpoint list
  rw [dinv_val, dinv_frame _ (r := main_v3) (by decide),
    dinv_frame _ (r := main_v6) (by decide),
    dinv_frame _ (r := main_arg0) (by decide),
    dinv_frame _ (r := main_arg2) (by decide),
    dinv_frame _ (r := main_arg3) (by decide),
    dinv_frame _ (r := main_arg4) (by decide),
    dinv_frame _ (r := main_arg5) (by decide),
    dinv_frame _ (r := main_arg6) (by decide),
    dinv_frame _ (r := main_arg7) (by decide)]
  -- the endpoint lists read the edge array
  rw [ends_src, ends_dst, ends_frame _ (r := main_arg0) (by decide),
    ends_frame _ (r := main_arg2) (by decide),
    ends_frame _ (r := main_arg3) (by decide),
    ends_frame _ (r := main_arg4) (by decide),
    ends_frame _ (r := main_arg5) (by decide),
    ends_frame _ (r := main_arg6) (by decide),
    ends_frame _ (r := main_arg7) (by decide)]
  -- what stands now is `full` with `norm` written out
  rfl

set_option maxRecDepth 8192 in
set_option maxHeartbeats 43200000 in
/-- The reference's run at the exact instance: every weakly fair execution of @main terminates with its result at
    `Cert.Spec.full` of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v84)
        = Cert.Spec.full (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (out_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq ValueP.scopedRefs_eq ValueP.scopedSems_eq defs main (fun _ => ValueP.ops) ValueP.main_eq (fun _ => ValueP.ops_sub) m ρ)

end Cert.ReferenceIdeal.RefValue

end
-- ==== Proof.lean ====
/-
  A two-layer graph convolution with a softmax assignment head over 50000 nodes and 1600000 edges:
  the kernel program does the three dense products (and the softmax) in row blocks of 10000 on the TensorCore, with the
  gathers, scatter-adds and the degree normalisation as host operations between them; the reference does everything as
  host operations.  At the exact (extended-real) instance a rounding to bf16 is the identity and a block of a matrix
  product is the block of the whole product, a row's softmax reads only its row, and the host operations between the
  regions are the reference's own: both programs end with the one function `Cert.Spec.full` of the argument arrays
  (Proof/Spec.lean).  No finiteness of the inputs is used: no algebraic law is applied, the two sides are one expression.
  The frames of the two kernel programs are the generated ones; the reference's frame is its run with the result dropped;
  the ideal pass rewrote nothing, so `preserves` is trivial.
-/
import proofs.«109165_j8486855377200_1_alg».proof.Defs
import proofs.«109165_j8486855377200_1_alg».proof.Proof.Gen.Kernel
import proofs.«109165_j8486855377200_1_alg».proof.Proof.Gen.Kernel.Skeleton
import proofs.«109165_j8486855377200_1_alg».proof.Proof.Gen.Kernel.Launch
import proofs.«109165_j8486855377200_1_alg».proof.Proof.Gen.Kernel.Points
import proofs.«109165_j8486855377200_1_alg».proof.Proof.Gen.Kernel.Frame
import proofs.«109165_j8486855377200_1_alg».proof.Proof.Gen.KernelIdeal
import proofs.«109165_j8486855377200_1_alg».proof.Proof.Gen.KernelIdeal.Skeleton
import proofs.«109165_j8486855377200_1_alg».proof.Proof.Gen.KernelIdeal.Launch
import proofs.«109165_j8486855377200_1_alg».proof.Proof.Gen.KernelIdeal.Points
import proofs.«109165_j8486855377200_1_alg».proof.Proof.Gen.KernelIdeal.Frame
import proofs.«109165_j8486855377200_1_alg».proof.Proof.Gen.ReferenceIdeal
import proofs.«109165_j8486855377200_1_alg».proof.Proof.Gen.Pre_finite_inputs
import Idealize.ShloMosaic.Adequacy
import Idealize.ShloMosaic.Init
import proofs.«109165_j8486855377200_1_alg».proof.Proof.Spec
import proofs.«109165_j8486855377200_1_alg».proof.Proof.KRun
import proofs.«109165_j8486855377200_1_alg».proof.Proof.KValue
import proofs.«109165_j8486855377200_1_alg».proof.Proof.RefRun

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing, so there is nothing to preserve. -/
theorem preserves : Cert.preserves_Kernel_KernelIdeal := trivial

/-- At the exact instance both programs end with the whole network `Cert.Spec.full` of the argument arrays in their result
    array: the kernel by its three regions and the host stretches between them, the reference by its host operations; from
    memories that agree on the arguments these are one array. -/
theorem algebraic : Cert.algebraic_KernelIdeal_ReferenceIdeal := by
  intro m ρ m' ρ' _ hagree
  refine ⟨fun c => Cert.Spec.full (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.value m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
